-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x76 : Shape := ⟨2, ![1000000, 76]⟩
abbrev S1000000 : Shape := ⟨1, ![1000000]⟩
abbrev S50000x32 : Shape := ⟨2, ![50000, 32]⟩
abbrev S2x32x64 : Shape := ⟨3, ![2, 32, 64]⟩
abbrev S2x76x64 : Shape := ⟨3, ![2, 76, 64]⟩
abbrev S2x64 : Shape := ⟨2, ![2, 64]⟩
abbrev S4x64x64 : Shape := ⟨3, ![4, 64, 64]⟩
abbrev S4x64 : Shape := ⟨2, ![4, 64]⟩
abbrev S64x2 : Shape := ⟨2, ![64, 2]⟩
abbrev S2 : Shape := ⟨1, ![2]⟩
abbrev S_ : Shape := ⟨0, ![]⟩

class Facts : Prop where
  bcast_S_S1000000x76 : S_.BroadcastsInDim S1000000x76 (![] : Fin 0 → Fin S1000000x76.rank)
  reducesTo_S1000000x76_S_d0_1 : S1000000x76.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S2x32x64 : S_.BroadcastsInDim S2x32x64 (![] : Fin 0 → Fin S2x32x64.rank)
  reducesTo_S2x32x64_S_d0_1_2 : S2x32x64.ReducesTo [0, 1, 2] S_
  bcast_S_S2x76x64 : S_.BroadcastsInDim S2x76x64 (![] : Fin 0 → Fin S2x76x64.rank)
  reducesTo_S2x76x64_S_d0_1_2 : S2x76x64.ReducesTo [0, 1, 2] S_
  bcast_S_S2x64 : S_.BroadcastsInDim S2x64 (![] : Fin 0 → Fin S2x64.rank)
  reducesTo_S2x64_S_d0_1 : S2x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x2 .f32 := Host.absf main_arg16
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S4x64 .f32) (main_arg14 : FVec F S4x64 .f32) (main_arg15 : FVec F S4x64 .f32) (main_arg16 : FVec F S64x2 .f32) (main_arg17 : FVec F S2 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg13
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S4x64 .f32 := Host.absf main_arg15
  let main_cst_24 : FVec F S_ .f32 := constant S_ .f32 0x7F800000#32
  let main_v65 : FVec F S4x64 .f32 := broadcastInDim S4x64 ![] bcast_S_S4x64 main_cst_24
  let main_v66 : IVec S4x64 1 := cmpf .olt main_v64 main_v65
  let main_c_25 : IVec S_ 1 := constantI S_ 1 1#1
  let main_v67 : IVec S_ 1 := (fun x v => Host.reduce IntOp.andi x v reducesTo_S4x64_S_d0_1 h_S_) main_v66 main_c_25
  fn_part4 (F := F) main_arg16 main_arg17 main_v63 main_v67

def fn_part2 {F : FTy → Type} [FloatOps F] (main_arg9 : FVec F S2x64 .f32) (main_arg10 : FVec F S4x64x64 .f32) (main_arg11 : FVec F S4x64x64 .f32) (main_arg12 : FVec F S4x64 .f32) (main_arg13 : FVec F S4x64 .f32) (main_arg14 : FVec F S4x64 .f32) (main_arg15 : FVec F S4x64 .f32) (main_arg16 : FVec F S64x2 .f32) (main_arg17 : FVec F S2 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S4x64x64 .f32 := Host.absf main_arg10
  let main_cst_14 : FVec F S_ .f32 := constant S_ .f32 0x7F800000#32
  let main_v40 : FVec F S4x64x64 .f32 := broadcastInDim S4x64x64 ![] bcast_S_S4x64x64 main_cst_14
  let main_v41 : IVec S4x64x64 1 := cmpf .olt main_v39 main_v40
  let main_c_15 : IVec S_ 1 := constantI S_ 1 1#1
  let main_v42 : IVec S_ 1 := (fun x v => Host.reduce IntOp.andi x v reducesTo_S4x64x64_S_d0_1_2 h_S_) main_v41 main_c_15
  let main_v43 : IVec S_ 1 := andi main_v38 main_v42
  let main_v44 : FVec F S4x64x64 .f32 := Host.absf main_arg11
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_arg15 main_arg16 main_arg17 main_v48 main_v49 main_v50

def fn_part1 {F : FTy → Type} [FloatOps F] (main_arg6 : FVec F S2x64 .f32) (main_arg7 : FVec F S2x76x64 .f32) (main_arg8 : FVec F S2x32x64 .f32) (main_arg9 : FVec F S2x64 .f32) (main_arg10 : FVec F S4x64x64 .f32) (main_arg11 : FVec F S4x64x64 .f32) (main_arg12 : FVec F S4x64 .f32) (main_arg13 : FVec F S4x64 .f32) (main_arg14 : FVec F S4x64 .f32) (main_arg15 : FVec F S4x64 .f32) (main_arg16 : FVec F S64x2 .f32) (main_arg17 : FVec F S2 .f32) (main_v13 : IVec S_ 1) (main_v16 : IVec S2x76x64 1) : IVec S_ 1 :=
  let main_c_5 : IVec S_ 1 := constantI S_ 1 1#1
  let main_v17 : IVec S_ 1 := (fun x v => Host.reduce IntOp.andi x v reducesTo_S2x76x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x76x64 .f32 := Host.absf main_arg7
  let main_cst_8 : FVec F S_ .f32 := constant S_ .f32 0x7F800000#32
  let main_v25 : FVec F S2x76x64 .f32 := broadcastInDim S2x76x64 ![] bcast_S_S2x76x64 main_cst_8
  let main_v26 : IVec S2x76x64 1 := cmpf .olt main_v24 main_v25
  let main_c_9 : IVec S_ 1 := constantI S_ 1 1#1
  let main_v27 : IVec S_ 1 := (fun x v => Host.reduce IntOp.andi x v reducesTo_S2x76x64_S_d0_1_2 h_S_) main_v26 main_c_9
  let main_v28 : IVec S_ 1 := andi main_v23 main_v27
  let main_v29 : FVec F S2x32x64 .f32 := Host.absf main_arg8
  let main_cst_10 : FVec F S_ .f32 := constant S_ .f32 0x7F800000#32
  let main_v30 : FVec F S2x32x64 .f32 := broadcastInDim S2x32x64 ![] bcast_S_S2x32x64 main_cst_10
  let main_v31 : IVec S2x32x64 1 := cmpf .olt main_v29 main_v30
  let main_c_11 : IVec S_ 1 := constantI S_ 1 1#1
  let main_v32 : IVec S_ 1 := (fun x v => Host.reduce IntOp.andi x v reducesTo_S2x32x64_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S1000000x76 .f32) (main_arg1 : IVec S1000000 32) (main_arg2 : IVec S1000000 32) (main_arg3 : FVec F S50000x32 .f32) (main_arg4 : FVec F S2x32x64 .f32) (main_arg5 : FVec F S2x76x64 .f32) (main_arg6 : FVec F S2x64 .f32) (main_arg7 : FVec F S2x76x64 .f32) (main_arg8 : FVec F S2x32x64 .f32) (main_arg9 : FVec F S2x64 .f32) (main_arg10 : FVec F S4x64x64 .f32) (main_arg11 : FVec F S4x64x64 .f32) (main_arg12 : FVec F S4x64 .f32) (main_arg13 : FVec F S4x64 .f32) (main_arg14 : FVec F S4x64 .f32) (main_arg15 : FVec F S4x64 .f32) (main_arg16 : FVec F S64x2 .f32) (main_arg17 : FVec F S2 .f32) : IVec S_ 1 :=
  let main_v0 : FVec F S1000000x76 .f32 := Host.absf main_arg0
  let main_cst : FVec F S_ .f32 := constant S_ .f32 0x7F800000#32
  let main_v1 : FVec F S1000000x76 .f32 := broadcastInDim S1000000x76 ![] bcast_S_S1000000x76 main_cst
  let main_v2 : IVec S1000000x76 1 := cmpf .olt main_v0 main_v1
  let main_c : IVec S_ 1 := constantI S_ 1 1#1
  let main_v3 : IVec S_ 1 := (fun x v => Host.reduce IntOp.andi x v reducesTo_S1000000x76_S_d0_1 h_S_) main_v2 main_c
  let main_v4 : FVec F S50000x32 .f32 := Host.absf main_arg3
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S2x32x64 .f32 := Host.absf main_arg4
  let main_cst_2 : FVec F S_ .f32 := constant S_ .f32 0x7F800000#32
  let main_v10 : FVec F S2x32x64 .f32 := broadcastInDim S2x32x64 ![] bcast_S_S2x32x64 main_cst_2
  let main_v11 : IVec S2x32x64 1 := cmpf .olt main_v9 main_v10
  let main_c_3 : IVec S_ 1 := constantI S_ 1 1#1
  let main_v12 : IVec S_ 1 := (fun x v => Host.reduce IntOp.andi x v reducesTo_S2x32x64_S_d0_1_2 h_S_) main_v11 main_c_3
  let main_v13 : IVec S_ 1 := andi main_v8 main_v12
  let main_v14 : FVec F S2x76x64 .f32 := Host.absf main_arg5
  let main_cst_4 : FVec F S_ .f32 := constant S_ .f32 0x7F800000#32
  let main_v15 : FVec F S2x76x64 .f32 := broadcastInDim S2x76x64 ![] bcast_S_S2x76x64 main_cst_4
  let main_v16 : IVec S2x76x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S1000000x76 : Shape := ⟨2, ![1000000, 76]⟩
abbrev S1000000 : Shape := ⟨1, ![1000000]⟩
abbrev S50000x32 : Shape := ⟨2, ![50000, 32]⟩
abbrev S2x32x64 : Shape := ⟨3, ![2, 32, 64]⟩
abbrev S2x76x64 : Shape := ⟨3, ![2, 76, 64]⟩
abbrev S2x64 : Shape := ⟨2, ![2, 64]⟩
abbrev S4x64x64 : Shape := ⟨3, ![4, 64, 64]⟩
abbrev S4x64 : Shape := ⟨2, ![4, 64]⟩
abbrev S64x2 : Shape := ⟨2, ![64, 2]⟩
abbrev S2 : Shape := ⟨1, ![2]⟩
abbrev S_ : Shape := ⟨0, ![]⟩
abbrev S50000x76 : Shape := ⟨2, ![50000, 76]⟩
abbrev S1000000x1 : Shape := ⟨2, ![1000000, 1]⟩
abbrev S50000x1 : Shape := ⟨2, ![50000, 1]⟩
abbrev S1x76x64 : Shape := ⟨3, ![1, 76, 64]⟩
abbrev S76x64 : Shape := ⟨2, ![76, 64]⟩
abbrev S50000x64 : Shape := ⟨2, ![50000, 64]⟩
abbrev S1x32x64 : Shape := ⟨3, ![1, 32, 64]⟩
abbrev S32x64 : Shape := ⟨2, ![32, 64]⟩
abbrev S1x64 : Shape := ⟨2, ![1, 64]⟩
abbrev S64 : Shape := ⟨1, ![64]⟩
abbrev S1000000x32 : Shape := ⟨2, ![1000000, 32]⟩
abbrev S1x64x64 : Shape := ⟨3, ![1, 64, 64]⟩
abbrev S64x64 : Shape := ⟨2, ![64, 64]⟩
abbrev S1000000x64 : Shape := ⟨2, ![1000000, 64]⟩
abbrev S2x64x64 : Shape := ⟨3, ![2, 64, 64]⟩
abbrev S1000000x2 : Shape := ⟨2, ![1000000, 2]⟩
abbrev S2000x32 : Shape := ⟨2, ![2000, 32]⟩
abbrev S2000x76 : Shape := ⟨2, ![2000, 76]⟩
abbrev S2000x64 : Shape := ⟨2, ![2000, 64]⟩
abbrev S2000x2 : Shape := ⟨2, ![2000, 2]⟩
abbrev S1x2 : Shape := ⟨2, ![1, 2]⟩

abbrev nBuf : Space → Nat
  | .hbm => 146
  | .vmem => 19
  | .smem => 0
  | _ => 0

abbrev hbmTy0_0 (i : Nat) : BufTy := match i % 128 with
  | 0 => ⟨S1000000x76, .f32⟩
  | 1 => ⟨S1000000, .i32⟩
  | 2 => ⟨S1000000, .i32⟩
  | 3 => ⟨S50000x32, .f32⟩
  | 4 => ⟨S2x32x64, .f32⟩
  | 5 => ⟨S2x76x64, .f32⟩
  | 6 => ⟨S2x64, .f32⟩
  | 7 => ⟨S2x76x64, .f32⟩
  | 8 => ⟨S2x32x64, .f32⟩
  | 9 => ⟨S2x64, .f32⟩
  | 10 => ⟨S4x64x64, .f32⟩
  | 11 => ⟨S4x64x64, .f32⟩
  | 12 => ⟨S4x64, .f32⟩
  | 13 => ⟨S4x64, .f32⟩
  | 14 => ⟨S4x64, .f32⟩
  | 15 => ⟨S4x64, .f32⟩
  | 16 => ⟨S64x2, .f32⟩
  | 17 => ⟨S2, .f32⟩
  | 18 => ⟨S_, .f32⟩
  | 19 => ⟨S50000x76, .f32⟩
  | 20 => ⟨S1000000x1, .i32⟩
  | 21 => ⟨S50000x76, .f32⟩
  | 22 => ⟨S_, .f32⟩
  | 23 => ⟨S1000000x1, .f32⟩
  | 24 => ⟨S_, .f32⟩
  | 25 => ⟨S50000x1, .f32⟩
  | 26 => ⟨S1000000x1, .i32⟩
  | 27 => ⟨S50000x1, .f32⟩
  | 28 => ⟨S_, .f32⟩
  | 29 => ⟨S50000x1, .f32⟩
  | 30 => ⟨S50000x1, .f32⟩
  | 31 => ⟨S50000x76, .f32⟩
  | 32 => ⟨S50000x76, .f32⟩
  | 33 => ⟨S_, .f32⟩
  | 34 => ⟨S50000x76, .f32⟩
  | 35 => ⟨S1000000x1, .i32⟩
  | 36 => ⟨S50000x76, .f32⟩
  | 37 => ⟨S_, .f32⟩
  | 38 => ⟨S1000000x1, .f32⟩
  | 39 => ⟨S_, .f32⟩
  | 40 => ⟨S50000x1, .f32⟩
  | 41 => ⟨S1000000x1, .i32⟩
  | 42 => ⟨S50000x1, .f32⟩
  | 43 => ⟨S_, .f32⟩
  | 44 => ⟨S50000x1, .f32⟩
  | 45 => ⟨S50000x1, .f32⟩
  | 46 => ⟨S50000x76, .f32⟩
  | 47 => ⟨S50000x76, .f32⟩
  | 48 => ⟨S1x76x64, .f32⟩
  | 49 => ⟨S76x64, .f32⟩
  | 50 => ⟨S50000x64, .f32⟩
  | 51 => ⟨S1x32x64, .f32⟩
  | 52 => ⟨S32x64, .f32⟩
  | 53 => ⟨S50000x64, .f32⟩
  | 54 => ⟨S50000x64, .f32⟩
  | 55 => ⟨S1x64, .f32⟩
  | 56 => ⟨S64, .f32⟩
  | 57 => ⟨S1x64, .f32⟩
  | 58 => ⟨S50000x64, .f32⟩
  | 59 => ⟨S50000x64, .f32⟩
  | 60 => ⟨S1x76x64, .f32⟩
  | 61 => ⟨S76x64, .f32⟩
  | 62 => ⟨S50000x64, .f32⟩
  | 63 => ⟨S50000x64, .f32⟩
  | 64 => ⟨S1x32x64, .f32⟩
  | 65 => ⟨S32x64, .f32⟩
  | 66 => ⟨S50000x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x32, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x32, .f32⟩
  | 118 => ⟨S1x64x64, .f32⟩
  | 119 => ⟨S64x64, .f32⟩
  | 120 => ⟨S50000x64, .f32⟩
  | 121 => ⟨S1x64x64, .f32⟩
  | 122 => ⟨S64x64, .f32⟩
  | 123 => ⟨S50000x64, .f32⟩
  | 124 => ⟨S_, .i32⟩
  | 125 => ⟨S1000000, .i32⟩
  | 126 => ⟨S1000000, .i1⟩
  | 127 => ⟨S_, .i32⟩
  | _ => ⟨S1000000x76, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S1000000x64, .f32⟩
  | 15 => ⟨S2x64x64, .f32⟩
  | 16 => ⟨S2x64, .f32⟩
  | 17 => ⟨S1000000x2, .f32⟩
  | _ => ⟨S1000000x76, .f32⟩

abbrev hbmTy (i : Nat) : BufTy := match i / 128 with
  | 0 => hbmTy0_0 i
  | 1 => hbmTy0_1 i
  | _ => ⟨S1000000x76, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S2000x76, .f32⟩
  | .local _ .vmem, ⟨5, _⟩ => ⟨S2000x76, .f32⟩
  | .local _ .vmem, ⟨6, _⟩ => ⟨S2000x64, .f32⟩
  | .local _ .vmem, ⟨7, _⟩ => ⟨S2000x64, .f32⟩
  | .local _ .vmem, ⟨8, _⟩ => ⟨S2x32x64, .f32⟩
  | .local _ .vmem, ⟨9, _⟩ => ⟨S2x76x64, .f32⟩
  | .local _ .vmem, ⟨10, _⟩ => ⟨S2x64, .f32⟩
  | .local _ .vmem, ⟨11, _⟩ => ⟨S4x64, .f32⟩
  | .local _ .vmem, ⟨12, _⟩ => ⟨S2x64x64, .f32⟩
  | .local _ .vmem, ⟨13, _⟩ => ⟨S2x64, .f32⟩
  | .local _ .vmem, ⟨14, _⟩ => ⟨S4x64, .f32⟩
  | .local _ .vmem, ⟨15, _⟩ => ⟨S64x2, .f32⟩
  | .local _ .vmem, ⟨16, _⟩ => ⟨S2, .f32⟩
  | .local _ .vmem, ⟨17, _⟩ => ⟨S2000x2, .f32⟩
  | .local _ .vmem, ⟨18, _⟩ => ⟨S2000x2, .f32⟩
  | _, _ => ⟨S1000000x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_v14 : Ref sig .tc := ⟨.hbm, 38, rfl⟩
abbrev main_cst_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_6 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_v72 : Ref sig .tc := ⟨.hbm, 101, rfl⟩
abbrev main_v73 : Ref sig .tc := ⟨.hbm, 102, rfl⟩
abbrev main_c_9 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_10 : Ref sig .tc := ⟨.hbm, 109, rfl⟩
abbrev main_v79 : Ref sig .tc := ⟨.hbm, 110, rfl⟩
abbrev main_v80 : Ref sig .tc := ⟨.hbm, 111, rfl⟩
abbrev main_c_11 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_12 : Ref sig .tc := ⟨.hbm, 124, rfl⟩
abbrev main_v92 : Ref sig .tc := ⟨.hbm, 125, rfl⟩
abbrev main_v93 : Ref sig .tc := ⟨.hbm, 126, rfl⟩
abbrev main_c_13 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_14 : Ref sig .tc := ⟨.hbm, 133, rfl⟩
abbrev main_v99 : Ref sig .tc := ⟨.hbm, 134, rfl⟩
abbrev main_v100 : Ref sig .tc := ⟨.hbm, 135, rfl⟩
abbrev main_c_15 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x76 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x76x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S50000x76 : S_.BroadcastsInDim S50000x76 (![] : Fin 0 → Fin S50000x76.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x76_0_1 : S50000x1.BroadcastsInDim S50000x76 (![0, 1] : Fin 2 → Fin S50000x76.rank)
  slices_S2x76x64_S1x76x64_0_0_0 : S2x76x64.Slices ![0, 0, 0] S1x76x64
  shapeCasts_S1x76x64_S76x64 : S1x76x64.ShapeCasts S76x64
  slices_S2x32x64_S1x32x64_0_0_0 : S2x32x64.Slices ![0, 0, 0] S1x32x64
  shapeCasts_S1x32x64_S32x64 : S1x32x64.ShapeCasts S32x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x76x64_S1x76x64_1_0_0 : S2x76x64.Slices ![1, 0, 0] S1x76x64
  slices_S2x32x64_S1x32x64_1_0_0 : S2x32x64.Slices ![1, 0, 0] S1x32x64
  slices_S2x64_S1x64_1_0 : S2x64.Slices ![1, 0] S1x64
  slices_S4x64_S1x64_0_0 : S4x64.Slices ![0, 0] S1x64
  slices_S4x64_S1x64_1_0 : S4x64.Slices ![1, 0] S1x64
  slices_S4x64_S1x64_2_0 : S4x64.Slices ![2, 0] S1x64
  slices_S4x64_S1x64_3_0 : S4x64.Slices ![3, 0] S1x64
  bcast_S_S64 : S_.BroadcastsInDim S64 (![] : Fin 0 → Fin S64.rank)
  bcast_S_S50000x64 : S_.BroadcastsInDim S50000x64 (![] : Fin 0 → Fin S50000x64.rank)
  bcast_S_S1000000 : S_.BroadcastsInDim S1000000 (![] : Fin 0 → Fin S1000000.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S2x64x64_0_0_0 : S4x64x64.Slices ![0, 0, 0] S2x64x64
  slices_S4x64_S2x64_0_0 : S4x64.Slices ![0, 0] S2x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S2000x76_S2000x76_0_0 : ∀ a, (![0, 0] : Fin 2 → Nat) a + S2000x76.size a ≤ S2000x76.size a
  h_S2000x76 : 0 < S2000x76.numel
  inb_S2x32x64_S1x32x64_0_0_0 : ∀ a, (![0, 0, 0] : Fin 3 → Nat) a + S1x32x64.size a ≤ S2x32x64.size a
  h_S1x32x64 : 0 < S1x32x64.numel
  inb_S2x32x64_S1x32x64_1_0_0 : ∀ a, (![1, 0, 0] : Fin 3 → Nat) a + S1x32x64.size a ≤ S2x32x64.size a
  inb_S2x76x64_S1x76x64_0_0_0 : ∀ a, (![0, 0, 0] : Fin 3 → Nat) a + S1x76x64.size a ≤ S2x76x64.size a
  h_S1x76x64 : 0 < S1x76x64.numel
  inb_S2x76x64_S1x76x64_1_0_0 : ∀ a, (![1, 0, 0] : Fin 3 → Nat) a + S1x76x64.size a ≤ S2x76x64.size a
  inb_S2x64_S1x64_0_0 : ∀ a, (![0, 0] : Fin 2 → Nat) a + S1x64.size a ≤ S2x64.size a
  h_S1x64 : 0 < S1x64.numel
  inb_S2x64_S1x64_1_0 : ∀ a, (![1, 0] : Fin 2 → Nat) a + S1x64.size a ≤ S2x64.size a
  shapeCasts_S64_S1x64 : S64.ShapeCasts S1x64
  broadcasts_S1x64_S2000x64 : S1x64.Broadcasts S2000x64
  inb_S4x64_S1x64_0_0 : ∀ a, (![0, 0] : Fin 2 → Nat) a + S1x64.size a ≤ S4x64.size a
  inb_S4x64_S1x64_1_0 : ∀ a, (![1, 0] : Fin 2 → Nat) a + S1x64.size a ≤ S4x64.size a
  inb_S4x64_S1x64_2_0 : ∀ a, (![2, 0] : Fin 2 → Nat) a + S1x64.size a ≤ S4x64.size a
  inb_S4x64_S1x64_3_0 : ∀ a, (![3, 0] : Fin 2 → Nat) a + S1x64.size a ≤ S4x64.size a
  inb_S2x64x64_S1x64x64_0_0_0 : ∀ a, (![0, 0, 0] : Fin 3 → Nat) a + S1x64x64.size a ≤ S2x64x64.size a
  h_S1x64x64 : 0 < S1x64x64.numel
  inb_S2x64x64_S1x64x64_1_0_0 : ∀ a, (![1, 0, 0] : Fin 3 → Nat) a + S1x64x64.size a ≤ S2x64x64.size a
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000x76_S1000000x1_S1000000x76_1_0_0_1_wf : ScatterDims.WF S50000x76 S1000000x1 S1000000x76 [1] [0] [0] 1
  scatter_S50000x1_S1000000x1_S1000000x1_1_0_0_1_wf : ScatterDims.WF S50000x1 S1000000x1 S1000000x1 [1] [0] [0] 1
  dot_S50000x76_S76x64_S50000x64_1_0_0_1_n_n_wf : DotDims.WF S50000x76 S76x64 S50000x64 [1] [0] [0] [1] [] []
  dot_S50000x32_S32x64_S50000x64_1_0_0_1_n_n_wf : DotDims.WF S50000x32 S32x64 S50000x64 [1] [0] [0] [1] [] []
  gather_S50000x32_S1000000x1_S1000000x32_1_0_n_n_0_1_132_wf : GatherDims.WF S50000x32 S1000000x1 S1000000x32 [1] [0] [] [0] [] 1 ![1, 32]
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  dot_S2000x32_S32x64_S2000x64_1_0_0_1_n_n_wf : DotDims.WF S2000x32 S32x64 S2000x64 [1] [0] [0] [1] [] []
  dot_S2000x76_S76x64_S2000x64_1_0_0_1_n_n_wf : DotDims.WF S2000x76 S76x64 S2000x64 [1] [0] [0] [1] [] []
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S1000000x32.size a
  hwx0_0 : ∀ i : grid0.Coords, EltTy.bits .f32 = 32 ∨ (Rect.block (s := S1000000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S1000000x32.size a
  hwx0_1 : ∀ i : grid0.Coords, EltTy.bits .f32 = 32 ∨ (Rect.block (s := S1000000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x76.size a ≤ S1000000x76.size a
  hwx0_2 : ∀ i : grid0.Coords, EltTy.bits .f32 = 32 ∨ (Rect.block (s := S1000000x76) S2000x76.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S1000000x64.size a
  hwx0_3 : ∀ i : grid0.Coords, EltTy.bits .f32 = 32 ∨ (Rect.block (s := S1000000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x32x64.size a ≤ S2x32x64.size a
  hwx0_4 : ∀ i : grid0.Coords, EltTy.bits .f32 = 32 ∨ (Rect.block (s := S2x32x64) S2x32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x76x64.size a ≤ S2x76x64.size a
  hwx0_5 : ∀ i : grid0.Coords, EltTy.bits .f32 = 32 ∨ (Rect.block (s := S2x76x64) S2x76x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64.size a ≤ S4x64.size a
  hwx0_7 : ∀ i : grid0.Coords, EltTy.bits .f32 = 32 ∨ (Rect.block (s := S4x64) S4x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x64x64.size a ≤ S2x64x64.size a
  hwx0_8 : ∀ i : grid0.Coords, EltTy.bits .f32 = 32 ∨ (Rect.block (s := S2x64x64) S2x64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x64.size a ≤ S2x64.size a
  hwx0_9 : ∀ i : grid0.Coords, EltTy.bits .f32 = 32 ∨ (Rect.block (s := S2x64) S2x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x64.size a ≤ S4x64.size a
  hwx0_10 : ∀ i : grid0.Coords, EltTy.bits .f32 = 32 ∨ (Rect.block (s := S4x64) S4x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x2.size a ≤ S64x2.size a
  hwx0_11 : ∀ i : grid0.Coords, EltTy.bits .f32 = 32 ∨ (Rect.block (s := S64x2) S64x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x2.size a ≤ S1000000x2.size a
  hwx0_13 : ∀ i : grid0.Coords, EltTy.bits .f32 = 32 ∨ (Rect.block (s := S1000000x2) S2000x2.size (cc0_transform_13 i) (hinb0_13 i)).WholeWords (EltTy.packing .f32)

variable [Facts₀]

def scatter_S50000x76_S1000000x1_S1000000x76_1_0_0_1 : ScatterDims S50000x76 S1000000x1 S1000000x76 where
  updateWindowDims := [1]
  insertedWindowDims := [0]
  scatterDimsToOperandDims := [0]
  indexVectorDim := 1
  wf := scatter_S50000x76_S1000000x1_S1000000x76_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x76_S76x64_S50000x64_1_0_0_1_n_n : DotDims S50000x76 S76x64 S50000x64 where
  lhsContracting := [1]
  rhsContracting := [0]
  lhsNonContracting := [0]
  rhsNonContracting := [1]
  lhsBatch := []
  rhsBatch := []
  wf := dot_S50000x76_S76x64_S50000x64_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x76_S76x64_S2000x64_1_0_0_1_n_n : DotDims S2000x76 S76x64 S2000x64 where
  lhsContracting := [1]
  rhsContracting := [0]
  lhsNonContracting := [0]
  rhsNonContracting := [1]
  lhsBatch := []
  rhsBatch := []
  wf := dot_S2000x76_S76x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_v78) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x76.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v106) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x76x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S4x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v107) S2x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v108) S2x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S4x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S64x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v109) S2000x2.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x76 : Shape := ⟨2, ![1000000, 76]⟩
abbrev S1000000 : Shape := ⟨1, ![1000000]⟩
abbrev S50000x32 : Shape := ⟨2, ![50000, 32]⟩
abbrev S2x32x64 : Shape := ⟨3, ![2, 32, 64]⟩
abbrev S2x76x64 : Shape := ⟨3, ![2, 76, 64]⟩
abbrev S2x64 : Shape := ⟨2, ![2, 64]⟩
abbrev S4x64x64 : Shape := ⟨3, ![4, 64, 64]⟩
abbrev S4x64 : Shape := ⟨2, ![4, 64]⟩
abbrev S64x2 : Shape := ⟨2, ![64, 2]⟩
abbrev S2 : Shape := ⟨1, ![2]⟩
abbrev S_ : Shape := ⟨0, ![]⟩
abbrev S1000000x1 : Shape := ⟨2, ![1000000, 1]⟩
abbrev S1000000x32 : Shape := ⟨2, ![1000000, 32]⟩
abbrev S1x32x64 : Shape := ⟨3, ![1, 32, 64]⟩
abbrev S32x64 : Shape := ⟨2, ![32, 64]⟩
abbrev S1000000x64 : Shape := ⟨2, ![1000000, 64]⟩
abbrev S1x76x64 : Shape := ⟨3, ![1, 76, 64]⟩
abbrev S76x64 : Shape := ⟨2, ![76, 64]⟩
abbrev S1x64 : Shape := ⟨2, ![1, 64]⟩
abbrev S64 : Shape := ⟨1, ![64]⟩
abbrev S50000x76 : Shape := ⟨2, ![50000, 76]⟩
abbrev S50000x1 : Shape := ⟨2, ![50000, 1]⟩
abbrev S50000x64 : Shape := ⟨2, ![50000, 64]⟩
abbrev S1x64x64 : Shape := ⟨3, ![1, 64, 64]⟩
abbrev S64x64 : Shape := ⟨2, ![64, 64]⟩
abbrev S1000000x2 : Shape := ⟨2, ![1000000, 2]⟩
abbrev S1x2 : Shape := ⟨2, ![1, 2]⟩

abbrev nBuf : Space → Nat
  | .hbm => 244
  | .vmem => 0
  | .smem => 0
  | _ => 0

abbrev hbmTy0_0 (i : Nat) : BufTy := match i % 128 with
  | 0 => ⟨S1000000x76, .f32⟩
  | 1 => ⟨S1000000, .i32⟩
  | 2 => ⟨S1000000, .i32⟩
  | 3 => ⟨S50000x32, .f32⟩
  | 4 => ⟨S2x32x64, .f32⟩
  | 5 => ⟨S2x76x64, .f32⟩
  | 6 => ⟨S2x64, .f32⟩
  | 7 => ⟨S2x76x64, .f32⟩
  | 8 => ⟨S2x32x64, .f32⟩
  | 9 => ⟨S2x64, .f32⟩
  | 10 => ⟨S4x64x64, .f32⟩
  | 11 => ⟨S4x64x64, .f32⟩
  | 12 => ⟨S4x64, .f32⟩
  | 13 => ⟨S4x64, .f32⟩
  | 14 => ⟨S4x64, .f32⟩
  | 15 => ⟨S4x64, .f32⟩
  | 16 => ⟨S64x2, .f32⟩
  | 17 => ⟨S2, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x32, .f32⟩
  | 27 => ⟨S1x32x64, .f32⟩
  | 28 => ⟨S32x64, .f32⟩
  | 29 => ⟨S1000000x64, .f32⟩
  | 30 => ⟨S1x76x64, .f32⟩
  | 31 => ⟨S76x64, .f32⟩
  | 32 => ⟨S1000000x64, .f32⟩
  | 33 => ⟨S1000000x64, .f32⟩
  | 34 => ⟨S1x64, .f32⟩
  | 35 => ⟨S64, .f32⟩
  | 36 => ⟨S1x64, .f32⟩
  | 37 => ⟨S1000000x64, .f32⟩
  | 38 => ⟨S1000000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x32, .f32⟩
  | 48 => ⟨S1x32x64, .f32⟩
  | 49 => ⟨S32x64, .f32⟩
  | 50 => ⟨S1000000x64, .f32⟩
  | 51 => ⟨S1000000x64, .f32⟩
  | 52 => ⟨S1x76x64, .f32⟩
  | 53 => ⟨S76x64, .f32⟩
  | 54 => ⟨S1000000x64, .f32⟩
  | 55 => ⟨S1000000x64, .f32⟩
  | 56 => ⟨S1x64, .f32⟩
  | 57 => ⟨S64, .f32⟩
  | 58 => ⟨S1x64, .f32⟩
  | 59 => ⟨S1000000x64, .f32⟩
  | 60 => ⟨S1000000x64, .f32⟩
  | 61 => ⟨S_, .f32⟩
  | 62 => ⟨S50000x76, .f32⟩
  | 63 => ⟨S1000000x1, .i32⟩
  | 64 => ⟨S50000x76, .f32⟩
  | 65 => ⟨S_, .f32⟩
  | 66 => ⟨S1000000x1, .f32⟩
  | 67 => ⟨S_, .f32⟩
  | 68 => ⟨S50000x1, .f32⟩
  | 69 => ⟨S1000000x1, .i32⟩
  | 70 => ⟨S50000x1, .f32⟩
  | 71 => ⟨S_, .f32⟩
  | 72 => ⟨S50000x1, .f32⟩
  | 73 => ⟨S50000x1, .f32⟩
  | 74 => ⟨S50000x76, .f32⟩
  | 75 => ⟨S50000x76, .f32⟩
  | 76 => ⟨S1x76x64, .f32⟩
  | 77 => ⟨S76x64, .f32⟩
  | 78 => ⟨S50000x64, .f32⟩
  | 79 => ⟨S1x32x64, .f32⟩
  | 80 => ⟨S32x64, .f32⟩
  | 81 => ⟨S50000x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S_, .f32⟩
  | 89 => ⟨S50000x76, .f32⟩
  | 90 => ⟨S1000000x1, .i32⟩
  | 91 => ⟨S50000x76, .f32⟩
  | 92 => ⟨S_, .f32⟩
  | 93 => ⟨S1000000x1, .f32⟩
  | 94 => ⟨S_, .f32⟩
  | 95 => ⟨S50000x1, .f32⟩
  | 96 => ⟨S1000000x1, .i32⟩
  | 97 => ⟨S50000x1, .f32⟩
  | 98 => ⟨S_, .f32⟩
  | 99 => ⟨S50000x1, .f32⟩
  | 100 => ⟨S50000x1, .f32⟩
  | 101 => ⟨S50000x76, .f32⟩
  | 102 => ⟨S50000x76, .f32⟩
  | 103 => ⟨S1x76x64, .f32⟩
  | 104 => ⟨S76x64, .f32⟩
  | 105 => ⟨S50000x64, .f32⟩
  | 106 => ⟨S50000x64, .f32⟩
  | 107 => ⟨S1x32x64, .f32⟩
  | 108 => ⟨S32x64, .f32⟩
  | 109 => ⟨S50000x64, .f32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S1x64, .f32⟩
  | 117 => ⟨S64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S1000000x64, .f32⟩
  | 126 => ⟨S1000000x64, .f32⟩
  | 127 => ⟨S_, .f32⟩
  | _ => ⟨S1000000x76, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S1000000x64, .f32⟩
  | 5 => ⟨S1000000x64, .f32⟩
  | 6 => ⟨S1x64, .f32⟩
  | 7 => ⟨S1000000x64, .f32⟩
  | 8 => ⟨S1000000x64, .f32⟩
  | 9 => ⟨S1x64, .f32⟩
  | 10 => ⟨S1000000x64, .f32⟩
  | 11 => ⟨S1000000x64, .f32⟩
  | 12 => ⟨S_, .f32⟩
  | 13 => ⟨S1000000x64, .f32⟩
  | 14 => ⟨S1000000x64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x64, .f32⟩
  | 22 => ⟨S64, .f32⟩
  | 23 => ⟨S1x64, .f32⟩
  | 24 => ⟨S50000x64, .f32⟩
  | 25 => ⟨S50000x64, .f32⟩
  | 26 => ⟨S_, .f32⟩
  | 27 => ⟨S64, .f32⟩
  | 28 => ⟨S64, .f32⟩
  | 29 => ⟨S64, .f32⟩
  | 30 => ⟨S1x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S1x64x64, .f32⟩
  | 52 => ⟨S64x64, .f32⟩
  | 53 => ⟨S1000000x64, .f32⟩
  | 54 => ⟨S1x64x64, .f32⟩
  | 55 => ⟨S64x64, .f32⟩
  | 56 => ⟨S1000000x64, .f32⟩
  | 57 => ⟨S1000000x64, .f32⟩
  | 58 => ⟨S1x64, .f32⟩
  | 59 => ⟨S64, .f32⟩
  | 60 => ⟨S1x64, .f32⟩
  | 61 => ⟨S1000000x64, .f32⟩
  | 62 => ⟨S1000000x64, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S1x64x64, .f32⟩
  | 73 => ⟨S64x64, .f32⟩
  | 74 => ⟨S1000000x64, .f32⟩
  | 75 => ⟨S1000000x64, .f32⟩
  | 76 => ⟨S1x64x64, .f32⟩
  | 77 => ⟨S64x64, .f32⟩
  | 78 => ⟨S1000000x64, .f32⟩
  | 79 => ⟨S1000000x64, .f32⟩
  | 80 => ⟨S1x64, .f32⟩
  | 81 => ⟨S64, .f32⟩
  | 82 => ⟨S1x64, .f32⟩
  | 83 => ⟨S1000000x64, .f32⟩
  | 84 => ⟨S1000000x64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S64, .f32⟩
  | 93 => ⟨S1x64, .f32⟩
  | 94 => ⟨S1000000x64, .f32⟩
  | 95 => ⟨S1000000x64, .f32⟩
  | 96 => ⟨S_, .f32⟩
  | 97 => ⟨S64, .f32⟩
  | 98 => ⟨S64, .f32⟩
  | 99 => ⟨S64, .f32⟩
  | 100 => ⟨S1x64, .f32⟩
  | 101 => ⟨S1000000x64, .f32⟩
  | 102 => ⟨S1000000x64, .f32⟩
  | 103 => ⟨S1x64, .f32⟩
  | 104 => ⟨S1000000x64, .f32⟩
  | 105 => ⟨S1000000x64, .f32⟩
  | 106 => ⟨S1x64, .f32⟩
  | 107 => ⟨S1000000x64, .f32⟩
  | 108 => ⟨S1000000x64, .f32⟩
  | 109 => ⟨S_, .f32⟩
  | 110 => ⟨S1000000x64, .f32⟩
  | 111 => ⟨S1000000x64, .f32⟩
  | 112 => ⟨S1000000x2, .f32⟩
  | 113 => ⟨S1x2, .f32⟩
  | 114 => ⟨S1000000x2, .f32⟩
  | 115 => ⟨S1000000x2, .f32⟩
  | _ => ⟨S1000000x76, .f32⟩

abbrev hbmTy (i : Nat) : BufTy := match i / 128 with
  | 0 => hbmTy0_0 i
  | 1 => hbmTy0_1 i
  | _ => ⟨S1000000x76, .f32⟩

abbrev bufTy : (tb : Table) → Fin (tcTables nBuf tb) → BufTy
  | .hbm, ⟨i, _⟩ => hbmTy i
  | _, _ => ⟨S1000000x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_10 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_call0_cst : Ref sig .tc := ⟨.hbm, 140, rfl⟩
abbrev main_call0_v0 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_11 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_call1_cst : Ref sig .tc := ⟨.hbm, 167, rfl⟩
abbrev main_call1_v0 : Ref sig .tc := ⟨.hbm, 168, rfl⟩
abbrev main_v133 : Ref sig .tc := ⟨.hbm, 169, rfl⟩
abbrev main_c_12 : Ref sig .tc := ⟨.hbm, 170, rfl⟩
abbrev main_v134 : Ref sig .tc := ⟨.hbm, 171, rfl⟩
abbrev main_v135 : Ref sig .tc := ⟨.hbm, 172, rfl⟩
abbrev main_c_13 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_c_14 : Ref sig .tc := ⟨.hbm, 191, rfl⟩
abbrev main_v153 : Ref sig .tc := ⟨.hbm, 192, rfl⟩
abbrev main_v154 : Ref sig .tc := ⟨.hbm, 193, rfl⟩
abbrev main_c_15 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_16 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_call2_cst : Ref sig .tc := ⟨.hbm, 237, rfl⟩
abbrev main_call2_v0 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x32x64_S1x32x64_0_0_0 : S2x32x64.Slices ![0, 0, 0] S1x32x64
  shapeCasts_S1x32x64_S32x64 : S1x32x64.ShapeCasts S32x64
  slices_S2x76x64_S1x76x64_0_0_0 : S2x76x64.Slices ![0, 0, 0] S1x76x64
  shapeCasts_S1x76x64_S76x64 : S1x76x64.ShapeCasts S76x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  slices_S2x32x64_S1x32x64_1_0_0 : S2x32x64.Slices ![1, 0, 0] S1x32x64
  slices_S2x76x64_S1x76x64_1_0_0 : S2x76x64.Slices ![1, 0, 0] S1x76x64
  slices_S2x64_S1x64_1_0 : S2x64.Slices ![1, 0] S1x64
  bcast_S_S50000x76 : S_.BroadcastsInDim S50000x76 (![] : Fin 0 → Fin S50000x76.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x76_0_1 : S50000x1.BroadcastsInDim S50000x76 (![0, 1] : Fin 2 → Fin S50000x76.rank)
  bcast_S1x64_S50000x64_0_1 : S1x64.BroadcastsInDim S50000x64 (![0, 1] : Fin 2 → Fin S50000x64.rank)
  slices_S4x64_S1x64_0_0 : S4x64.Slices ![0, 0] S1x64
  slices_S4x64_S1x64_1_0 : S4x64.Slices ![1, 0] S1x64
  slices_S4x64_S1x64_2_0 : S4x64.Slices ![2, 0] S1x64
  slices_S4x64_S1x64_3_0 : S4x64.Slices ![3, 0] S1x64
  bcast_S_S64 : S_.BroadcastsInDim S64 (![] : Fin 0 → Fin S64.rank)
  bcast_S_S1000000x64 : S_.BroadcastsInDim S1000000x64 (![] : Fin 0 → Fin S1000000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  gather_S50000x32_S1000000x1_S1000000x32_1_0_n_n_0_1_132_wf : GatherDims.WF S50000x32 S1000000x1 S1000000x32 [1] [0] [] [0] [] 1 ![1, 32]
  dot_S1000000x32_S32x64_S1000000x64_1_0_0_1_n_n_wf : DotDims.WF S1000000x32 S32x64 S1000000x64 [1] [0] [0] [1] [] []
  dot_S1000000x76_S76x64_S1000000x64_1_0_0_1_n_n_wf : DotDims.WF S1000000x76 S76x64 S1000000x64 [1] [0] [0] [1] [] []
  scatter_S50000x76_S1000000x1_S1000000x76_1_0_0_1_wf : ScatterDims.WF S50000x76 S1000000x1 S1000000x76 [1] [0] [0] 1
  scatter_S50000x1_S1000000x1_S1000000x1_1_0_0_1_wf : ScatterDims.WF S50000x1 S1000000x1 S1000000x1 [1] [0] [0] 1
  dot_S50000x76_S76x64_S50000x64_1_0_0_1_n_n_wf : DotDims.WF S50000x76 S76x64 S50000x64 [1] [0] [0] [1] [] []
  dot_S50000x32_S32x64_S50000x64_1_0_0_1_n_n_wf : DotDims.WF S50000x32 S32x64 S50000x64 [1] [0] [0] [1] [] []
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  dot_S1000000x64_S64x2_S1000000x2_1_0_0_1_n_n_wf : DotDims.WF S1000000x64 S64x2 S1000000x2 [1] [0] [0] [1] [] []

variable [Facts₀]

def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x76_S76x64_S1000000x64_1_0_0_1_n_n : DotDims S1000000x76 S76x64 S1000000x64 where
  lhsContracting := [1]
  rhsContracting := [0]
  lhsNonContracting := [0]
  rhsNonContracting := [1]
  lhsBatch := []
  rhsBatch := []
  wf := dot_S1000000x76_S76x64_S1000000x64_1_0_0_1_n_n_wf
def scatter_S50000x76_S1000000x1_S1000000x76_1_0_0_1 : ScatterDims S50000x76 S1000000x1 S1000000x76 where
  updateWindowDims := [1]
  insertedWindowDims := [0]
  scatterDimsToOperandDims := [0]
  indexVectorDim := 1
  wf := scatter_S50000x76_S1000000x1_S1000000x76_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x76_S76x64_S50000x64_1_0_0_1_n_n : DotDims S50000x76 S76x64 S50000x64 where
  lhsContracting := [1]
  rhsContracting := [0]
  lhsNonContracting := [0]
  rhsNonContracting := [1]
  lhsBatch := []
  rhsBatch := []
  wf := dot_S50000x76_S76x64_S50000x64_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x2_S1000000x2_1_0_0_1_n_n : DotDims S1000000x64 S64x2 S1000000x2 where
  lhsContracting := [1]
  rhsContracting := [0]
  lhsNonContracting := [0]
  rhsNonContracting := [1]
  lhsBatch := []
  rhsBatch := []
  wf := dot_S1000000x64_S64x2_S1000000x2_1_0_0_1_n_n_wf

class Facts : Prop extends Facts₀ where

variable [Facts]
-- ==== Proof.Spec.lean ====
/-
  THE NETWORK, ONE FLOW ROW AT A TIME, OVER THE EXTENDED REALS.

  Both programs compute, for every flow row, the same small network:
    conv1:  pre1[q] = hs·Wl0[:,q] + x·Wr0[:,q] + hd·Wl1[:,q] + x·Wr1[:,q] + b1[0,q] + b1[1,q]       (q < 64)
            h1[q]   = max (batchnorm₁ pre1[q]) 0
    conv2:  pre2[k] = g2[k] + h1·W2r0[:,k] + h1·W2r1[:,k] + b2[0,k] + b2[1,k]                        (k < 64)
            h2[k]   = max (batchnorm₂ pre2[k]) 0
    head:   out[j]  = h2·LW[:,j] + lb[j]                                                             (j < 2)
  where hs, hd are the rows of the host embedding table the flow's two hosts select, x is the flow's feature row and
  g2 is the host branch's contribution to conv2. This file states that function (`net`) with every array a function
  of explicit coordinates, and the two regroupings of a six-term sum under which the two programs' orders of
  addition agree. Addition of extended reals is commutative and associative (with -∞ absorbing), so the regroupings
  hold with no finiteness hypothesis; nothing here distributes a product over a sum.
-/
import Idealize.ShloMosaic.PureOps.Ideal
import Idealize.ShloMosaic.Lib.ValueIdx

noncomputable section

open scoped BigOperators

namespace Cert.Net

open Idealize.ShloMosaic

/-- A row against a column: the sum of the products. -/
def lin {K : Nat} (x w : Fin K → EReal) : EReal := ∑ p : Fin K, x p * w p

/-- The variance offset of the batch norms, the binary32 number nearest 1e-5, as both programs spell it. -/
def eps : EReal := Ideal.ofBits .f32 0x3727C5AC#32

/-- The zero both programs take the maximum with. -/
def zero : EReal := Ideal.ofBits .f32 0x00000000#32

/-- Inference-mode batch norm of one entry (scale g, shift b, running mean rm, running variance rv), then max with 0. -/
def bnr (g b rm rv x : EReal) : EReal := max ((x - rm) * Ideal.rsqrt (rv + eps) * g + b) zero

/-- conv1's six summands, in the order the kernel adds them. -/
def pre1 (a b c d b0 b1 : EReal) : EReal := a + b + c + d + b0 + b1

/-- The reference adds the first bias after the first two products. -/
theorem pre1_ref (a b c d b0 b1 : EReal) : a + b + b0 + c + d + b1 = pre1 a b c d b0 b1 := by
  unfold pre1
  simp only [add_assoc, add_left_comm, add_comm]

/-- conv2's summands, in the order the kernel adds them; its host term arrives already summed. -/
def pre2 (g u0 u1 b0 b1 : EReal) : EReal := g + u0 + u1 + b0 + b1

/-- The reference adds its two host products apart, each next to the flow product and bias of its relation. -/
theorem pre2_ref (a c u0 u1 b0 b1 : EReal) : a + u0 + b0 + c + u1 + b1 = pre2 (a + c) u0 u1 b0 b1 := by
  unfold pre2
  simp only [add_assoc, add_left_comm, add_comm]

/-- Entry q of the first hidden row. -/
def hid1 (hs hd : Fin 32 → EReal) (x : Fin 76 → EReal) (wl : Fin 2 → Fin 32 → Fin 64 → EReal)
    (wr : Fin 2 → Fin 76 → Fin 64 → EReal) (b1 : Fin 2 → Fin 64 → EReal) (bn1 : Fin 4 → Fin 64 → EReal)
    (q : Fin 64) : EReal :=
  bnr (bn1 0 q) (bn1 1 q) (bn1 2 q) (bn1 3 q)
    (pre1 (lin hs fun p => wl 0 p q) (lin x fun p => wr 0 p q) (lin hd fun p => wl 1 p q) (lin x fun p => wr 1 p q)
      (b1 0 q) (b1 1 q))

/-- Entry k of the second hidden row, from the first hidden row h1 and the host term g2. -/
def hid2 (h1 g2 : Fin 64 → EReal) (w2 : Fin 2 → Fin 64 → Fin 64 → EReal) (b2 : Fin 2 → Fin 64 → EReal)
    (bn2 : Fin 4 → Fin 64 → EReal) (k : Fin 64) : EReal :=
  bnr (bn2 0 k) (bn2 1 k) (bn2 2 k) (bn2 3 k)
    (pre2 (g2 k) (lin h1 fun q => w2 0 q k) (lin h1 fun q => w2 1 q k) (b2 0 k) (b2 1 k))

/-- Entry j of the output row. -/
def head (h2 : Fin 64 → EReal) (lw : Fin 64 → Fin 2 → EReal) (lb : Fin 2 → EReal) (j : Fin 2) : EReal :=
  lin h2 (fun k => lw k j) + lb j

/-- The whole network on one flow row. -/
def net (hs hd : Fin 32 → EReal) (x : Fin 76 → EReal) (g2 : Fin 64 → EReal) (wl : Fin 2 → Fin 32 → Fin 64 → EReal)
    (wr : Fin 2 → Fin 76 → Fin 64 → EReal) (b1 : Fin 2 → Fin 64 → EReal) (bn1 : Fin 4 → Fin 64 → EReal)
    (w2 : Fin 2 → Fin 64 → Fin 64 → EReal) (b2 : Fin 2 → Fin 64 → EReal) (bn2 : Fin 4 → Fin 64 → EReal)
    (lw : Fin 64 → Fin 2 → EReal) (lb : Fin 2 → EReal) (j : Fin 2) : EReal :=
  head (hid2 (hid1 hs hd x wl wr b1 bn1) g2 w2 b2 bn2) lw lb j

end Cert.Net

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«110349_j84696755077152_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.KernelRow.lean ====
/-
  WHAT ONE GRID POINT LEAVES IN ITS OUTPUT BLOCK, ENTRY BY ENTRY.

  A grid point works on 2000 consecutive flow rows. Its body loads the four row blocks (the two gathered host
  embedding blocks [2000, 32], the feature block [2000, 76], the host term's block [2000, 64]) and the nine small
  parameter arrays whole, and stores one [2000, 2] block. Row r of that block depends only on row r of the four row
  blocks: it is the network of Spec.lean on those rows. The number formats the body passes through (it narrows the
  matmul operands to bfloat16) are the identity on the extended reals, and a matrix product into a zero accumulator
  is the plain sum of products, so each payload read at an entry is the corresponding formula of the specification.
-/
import proofs.«110349_j84696755077152_2_alg».proof.Proof.Gen.KernelIdeal.Value
import proofs.«110349_j84696755077152_2_alg».proof.Proof.Spec
import proofs.«110349_j84696755077152_2_alg».proof.Proof.LibRowReads
import Idealize.ShloMosaic.Lib.Pipeline.Value

noncomputable section

open scoped BigOperators

namespace Cert.KernelIdeal.Row

open Cert.KernelIdeal Cert.KernelIdeal.Gen Idealize.ShloMosaic Idealize.ShloMosaic.ValueIdx Cert.Net Cert.Lib

/-! ## Loads -/

/-- A load through a unit-stride rectangle reads the buffer at offset + coordinate, axis by axis. -/
theorem ld_unit_apply {Val : EltTy → Type} {e : EltTy} {S : Shape} (X : S.Idx → Val e) (off size : Fin S.rank → Nat)
    (inb : ∀ a, off a + size a ≤ S.size a) (j : (⟨S.rank, size⟩ : Shape).Idx) (k : S.Idx)
    (h : ∀ a, (k a).val = off a + (j a).val) : View.ld X (Rect.unit off size inb) j = X k := by
  show X ((Rect.unit off size inb).idx j) = X k
  congr 1; funext a; apply Fin.ext
  show off a + 1 * (j a).val = (k a).val
  rw [h a, Nat.one_mul]

theorem zeros1 : (![0] : Fin 1 → Nat) = fun _ => 0 := by funext a; match a with | ⟨0, _⟩ => rfl
theorem zeros2 : (![0, 0] : Fin 2 → Nat) = fun _ => 0 := by funext a; match a with | ⟨0, _⟩ => rfl | ⟨1, _⟩ => rfl

/-- Slab s of a stacked [n, a, b] parameter, loaded as [1, a, b]: at (0, p, q), the parameter at (s, p, q). -/
theorem ld_slab {Val : EltTy → Type} {e : EltTy} {n a b : Nat} (X : (⟨3, ![n, a, b]⟩ : Shape).Idx → Val e) (o : Nat) (ho : o < n)
    (inb : ∀ ax, (![o, 0, 0] : Fin 3 → Nat) ax + (![1, a, b] : Fin 3 → Nat) ax ≤ (⟨3, ![n, a, b]⟩ : Shape).size ax)
    (p : Fin a) (q : Fin b) :
    View.ld X (Rect.unit (s := ⟨3, ![n, a, b]⟩) ![o, 0, 0] ![1, a, b] inb) (ix3 (0 : Fin 1) p q)
      = X (ix3 (⟨o, ho⟩ : Fin n) p q) :=
  ld_unit_apply X _ _ inb _ _ fun ax => match ax with
    | ⟨0, _⟩ => rfl
    | ⟨1, _⟩ => (Nat.zero_add _).symm
    | ⟨2, _⟩ => (Nat.zero_add _).symm

/-- Row s of a stacked [n, b] parameter, loaded as [1, b]: at (0, c), the parameter at (s, c). -/
theorem ld_row {Val : EltTy → Type} {e : EltTy} {n b : Nat} (X : (⟨2, ![n, b]⟩ : Shape).Idx → Val e) (o : Nat) (ho : o < n)
    (inb : ∀ ax, (![o, 0] : Fin 2 → Nat) ax + (![1, b] : Fin 2 → Nat) ax ≤ (⟨2, ![n, b]⟩ : Shape).size ax)
    (c : Fin b) :
    View.ld X (Rect.unit (s := ⟨2, ![n, b]⟩) ![o, 0] ![1, b] inb) (ix2 (0 : Fin 1) c) = X (ix2 (⟨o, ho⟩ : Fin n) c) :=
  ld_unit_apply X _ _ inb _ _ fun ax => match ax with
    | ⟨0, _⟩ => rfl
    | ⟨1, _⟩ => (Nat.zero_add _).symm

/-! ## The four products' records -/

theorem mm32 {φ₁ φ₂ : FTy} (a : FVec Ideal S2000x32 φ₁) (b : FVec Ideal S32x64 φ₂) (r : Fin 2000) (q : Fin 64) :
    matmul dot_S2000x32_S32x64_S2000x64_1_0_0_1_n_n none a b (constant S2000x64 .f32 0x00000000#32) (ix2 r q)
      = ∑ p : Fin 32, a (ix2 r p) * b (ix2 p q) :=
  matmul_zero_at _ rfl rfl rfl rfl rfl rfl none a b r q

theorem mm76 {φ₁ φ₂ : FTy} (a : FVec Ideal S2000x76 φ₁) (b : FVec Ideal S76x64 φ₂) (r : Fin 2000) (q : Fin 64) :
    matmul dot_S2000x76_S76x64_S2000x64_1_0_0_1_n_n none a b (constant S2000x64 .f32 0x00000000#32) (ix2 r q)
      = ∑ p : Fin 76, a (ix2 r p) * b (ix2 p q) :=
  matmul_zero_at _ rfl rfl rfl rfl rfl rfl none a b r q

theorem mm64 {φ₁ φ₂ : FTy} (a : FVec Ideal S2000x64 φ₁) (b : FVec Ideal S64x64 φ₂) (r : Fin 2000) (q : Fin 64) :
    matmul dot_S2000x64_S64x64_S2000x64_1_0_0_1_n_n none a b (constant S2000x64 .f32 0x00000000#32) (ix2 r q)
      = ∑ p : Fin 64, a (ix2 r p) * b (ix2 p q) :=
  matmul_zero_at _ rfl rfl rfl rfl rfl rfl none a b r q

theorem mm2 {φ₁ φ₂ : FTy} (a : FVec Ideal S2000x64 φ₁) (b : FVec Ideal S64x2 φ₂) (r : Fin 2000) (j : Fin 2) :
    matmul dot_S2000x64_S64x2_S2000x2_1_0_0_1_n_n none a b (constant S2000x2 .f32 0x00000000#32) (ix2 r j)
      = ∑ p : Fin 64, a (ix2 r p) * b (ix2 p j) :=
  matmul_zero_at _ rfl rfl rfl rfl rfl rfl none a b r j

/-- The reciprocal square root of a vector, at an entry. -/
theorem rsqrt_apply {s : Shape} {φ : FTy} (a : FVec Ideal s φ) (i : s.Idx) : rsqrt a i = Ideal.rsqrt (a i) := rfl

/-! ## The payloads at an entry -/

/-- conv1's four products, summed in the body's order. -/
theorem pay3_at (v0 v3 : Vec Ideal S2000x32 .f32) (v6 : Vec Ideal S2000x76 .f32) (v8 v11 : Vec Ideal S1x32x64 .f32)
    (v14 v17 : Vec Ideal S1x76x64 .f32) (r : Fin 2000) (q : Fin 64) :
    k0_pay3 v0 v3 v6 v8 v11 v14 v17 (ix2 r q)
      = lin (fun p => v0 (ix2 r p)) (fun p => v8 (ix3 (0 : Fin 1) p q))
        + lin (fun p => v6 (ix2 r p)) (fun p => v14 (ix3 (0 : Fin 1) p q))
        + lin (fun p => v3 (ix2 r p)) (fun p => v11 (ix3 (0 : Fin 1) p q))
        + lin (fun p => v6 (ix2 r p)) (fun p => v17 (ix3 (0 : Fin 1) p q)) := by
  unfold k0_pay3 lin
  simp only [addf_apply, mm32, mm76, truncf_apply, shapeCast_self, shapeCast_1ab_ab_apply]

/-- A bias row repeated down the block. -/
theorem pay4_at (v20 : Vec Ideal S1x64 .f32) (r : Fin 2000) (q : Fin 64) :
    k0_pay4 v20 (ix2 r q) = v20 (ix2 (0 : Fin 1) q) := by
  unfold k0_pay4; exact bcast_row_apply v20 _ _ _ r q

theorem pay2_at (v22 : Vec Ideal S1x64 .f32) (q : Fin 64) : k0_pay2 v22 (ix1 q) = v22 (ix2 (0 : Fin 1) q) := by
  unfold k0_pay2; exact shapeCast_1a_a_apply v22 _ q

theorem pay8_at (v69 : Vec Ideal S1x64 .f32) (q : Fin 64) : k0_pay8 v69 (ix1 q) = v69 (ix2 (0 : Fin 1) q) := by
  unfold k0_pay8; exact shapeCast_1a_a_apply v69 _ q

theorem pay9_at (v71 : Vec Ideal S1x64 .f32) (q : Fin 64) : k0_pay9 v71 (ix1 q) = v71 (ix2 (0 : Fin 1) q) := by
  unfold k0_pay9; exact shapeCast_1a_a_apply v71 _ q

theorem pay6_at (v63 : Vec Ideal S1x64x64 .f32) (q k : Fin 64) : k0_pay6 v63 (ix2 q k) = v63 (ix3 (0 : Fin 1) q k) := by
  unfold k0_pay6; exact shapeCast_1ab_ab_apply v63 _ q k

theorem pay7_at (v66 : Vec Ideal S1x64x64 .f32) (q k : Fin 64) : k0_pay7 v66 (ix2 q k) = v66 (ix3 (0 : Fin 1) q k) := by
  unfold k0_pay7; exact shapeCast_1ab_ab_apply v66 _ q k

/-- The first hidden block: the two biases added, batch norm, max with 0. -/
theorem pay5_at (v23 : FVec Ideal S64 .f32) (v30 v32 : FVec Ideal S2000x64 .f32) (v37 v39 v41 v43 : Vec Ideal S1x64 .f32)
    (r : Fin 2000) (q : Fin 64) :
    k0_pay5 v23 v30 v32 v37 v39 v41 v43 (ix2 r q)
      = bnr (v37 (ix2 (0 : Fin 1) q)) (v39 (ix2 (0 : Fin 1) q)) (v41 (ix2 (0 : Fin 1) q)) (v43 (ix2 (0 : Fin 1) q))
          (v30 (ix2 r q) + v32 (ix2 r q) + v23 (ix1 q)) := by
  unfold k0_pay5 bnr eps zero
  simp only [truncf_apply, maximumf_apply, addf_apply, mulf_apply, subf_apply, broadcast_apply, rsqrt_apply,
    broadcastTo_1b_ab_apply, shapeCast_a_1a_apply, shapeCast_1a_a_apply]
  rfl

/-- conv2, its batch norm and max with 0, and the head's product. -/
theorem pay10_at (v62 : FVec Ideal S2000x64 .bf16) (v65 v68 : FVec Ideal S64x64 .bf16) (v70 v72 : FVec Ideal S64 .f32)
    (v75 : Vec Ideal S2000x64 .f32) (v85 v87 v89 v91 : Vec Ideal S1x64 .f32) (v111 : Vec Ideal S64x2 .f32)
    (r : Fin 2000) (j : Fin 2) :
    k0_pay10 v62 v65 v68 v70 v72 v75 v85 v87 v89 v91 v111 (ix2 r j)
      = lin (fun k => bnr (v85 (ix2 (0 : Fin 1) k)) (v87 (ix2 (0 : Fin 1) k)) (v89 (ix2 (0 : Fin 1) k)) (v91 (ix2 (0 : Fin 1) k))
            (pre2 (v75 (ix2 r k)) (lin (fun q => v62 (ix2 r q)) (fun q => v65 (ix2 q k)))
              (lin (fun q => v62 (ix2 r q)) (fun q => v68 (ix2 q k))) (v70 (ix1 k)) (v72 (ix1 k))))
          (fun k => v111 (ix2 k j)) := by
  unfold k0_pay10 lin bnr pre2 eps zero
  simp only [mm2, mm64, truncf_apply, maximumf_apply, addf_apply, mulf_apply, subf_apply, broadcast_apply, rsqrt_apply,
    shapeCast_self, broadcastTo_1b_ab_apply, shapeCast_a_1a_apply, shapeCast_1a_a_apply]
  rfl

/-- The head's bias added. -/
theorem pay1_at (v113 : Vec Ideal S2 .f32) (v114 : FVec Ideal S2000x2 .f32) (r : Fin 2000) (j : Fin 2) :
    k0_pay1 v113 v114 (ix2 r j) = v114 (ix2 r j) + v113 (ix1 j) := by
  unfold k0_pay1
  simp only [addf_apply, broadcastTo_1b_ab_apply, shapeCast_a_1a_apply]

/-! ## The block -/

/-- ENTRY (r, j) OF THE BLOCK A GRID POINT STORES is the network on row r of its four row blocks. -/
theorem out_at (x0 x1 : Vec Ideal S2000x32 .f32) (x2 : Vec Ideal S2000x76 .f32) (x3 : Vec Ideal S2000x64 .f32)
    (x4 : Vec Ideal S2x32x64 .f32) (x5 : Vec Ideal S2x76x64 .f32) (x6 : Vec Ideal S2x64 .f32) (x7 : Vec Ideal S4x64 .f32)
    (x8 : Vec Ideal S2x64x64 .f32) (x9 : Vec Ideal S2x64 .f32) (x10 : Vec Ideal S4x64 .f32) (x11 : Vec Ideal S64x2 .f32)
    (x12 : Vec Ideal S2 .f32) (r : Fin 2000) (j : Fin 2) :
    out0_13 x0 x1 x2 x3 x4 x5 x6 x7 x8 x9 x10 x11 x12 (ix2 r j)
      = net (fun p => x0 (ix2 r p)) (fun p => x1 (ix2 r p)) (fun p => x2 (ix2 r p)) (fun k => x3 (ix2 r k))
          (fun a p q => x4 (ix3 a p q)) (fun a p q => x5 (ix3 a p q)) (fun a q => x6 (ix2 a q)) (fun a q => x7 (ix2 a q))
          (fun a q k => x8 (ix3 a q k)) (fun a k => x9 (ix2 a k)) (fun a k => x10 (ix2 a k)) (fun k j => x11 (ix2 k j))
          (fun j => x12 (ix1 j)) j := by
  unfold out0_13
  rw [View.canon_unit_zero zeros2]
  unfold net head hid2 hid1 pre1
  simp only [pay1_at, pay10_at, pay5_at, pay3_at, pay4_at, pay2_at, pay6_at, pay7_at, pay8_at, pay9_at,
    View.ld_unit_zero (S := S2000x32) zeros2, View.ld_unit_zero (S := S2000x76) zeros2,
    View.ld_unit_zero (S := S2000x64) zeros2, View.ld_unit_zero (S := S64x2) zeros2, View.ld_unit_zero (S := S2) zeros1,
    ld_slab x4 0 (by decide), ld_slab x4 1 (by decide), ld_slab x5 0 (by decide), ld_slab x5 1 (by decide),
    ld_slab x8 0 (by decide), ld_slab x8 1 (by decide), ld_row x6 0 (by decide), ld_row x6 1 (by decide),
    ld_row x9 0 (by decide), ld_row x9 1 (by decide), ld_row x7 0 (by decide), ld_row x7 1 (by decide),
    ld_row x7 2 (by decide), ld_row x7 3 (by decide), ld_row x10 0 (by decide), ld_row x10 1 (by decide),
    ld_row x10 2 (by decide), ld_row x10 3 (by decide)]
  rfl

end Cert.KernelIdeal.Row

end
-- ==== Proof.KernelArray.lean ====
/-
  FROM BLOCKS TO THE ARRAY: THE KERNEL'S RESULT AS ONE FUNCTION OF ITS OPERAND ARRAYS.

  The grid has 500 points. Point t works on flow rows 2000·t … 2000·t + 1999: that block of each of the four row
  arrays, every parameter array whole, and it writes back that block of the [1000000, 2] result. So global row R of
  the result is the network of Spec.lean on global row R of the four row arrays (`outArr`), the blocks tile the
  result, and after the run the result array is `outArr` of the operand arrays as the region finds them.
-/
import proofs.«110349_j84696755077152_2_alg».proof.Proof.KernelRow

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The result array from the thirteen operand arrays: entry (R, j) is the network on row R of the four row arrays. -/
def outArr (A0 A1 : S1000000x32.Idx → EReal) (A2 : S1000000x76.Idx → EReal) (A3 : S1000000x64.Idx → EReal)
    (A4 : S2x32x64.Idx → EReal) (A5 : S2x76x64.Idx → EReal) (A6 : S2x64.Idx → EReal) (A7 : S4x64.Idx → EReal)
    (A8 : S2x64x64.Idx → EReal) (A9 : S2x64.Idx → EReal) (A10 : S4x64.Idx → EReal) (A11 : S64x2.Idx → EReal)
    (A12 : S2.Idx → EReal) : S1000000x2.Idx → EReal := fun i =>
  net (fun p => A0 (ix2 (⟨(i 0).val, (i 0).isLt⟩ : Fin 1000000) p)) (fun p => A1 (ix2 (⟨(i 0).val, (i 0).isLt⟩ : Fin 1000000) p))
    (fun p => A2 (ix2 (⟨(i 0).val, (i 0).isLt⟩ : Fin 1000000) p)) (fun k => A3 (ix2 (⟨(i 0).val, (i 0).isLt⟩ : Fin 1000000) k))
    (fun a p q => A4 (ix3 a p q)) (fun a p q => A5 (ix3 a p q)) (fun a q => A6 (ix2 a q)) (fun a q => A7 (ix2 a q))
    (fun a q k => A8 (ix3 a q k)) (fun a k => A9 (ix2 a k)) (fun a k => A10 (ix2 a k)) (fun k j => A11 (ix2 k j))
    (fun j => A12 (ix1 j)) (⟨(i 1).val, (i 1).isLt⟩ : Fin 2)

variable (m : (ℓ : Loc nD τ sig) → Buf (Elt Ideal) ℓ) (ρ : Dev nD → PrngReg)

/-! ## The index maps, decided over the grid -/

/-- The four row windows and the output window are at block row t, block column 0, at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_13.index t (0 : Fin 2) = t.val ∧ win0_13.index t (1 : Fin 2) = 0 :=
  (by decide +kernel : ∀ t : Fin grid0.N, _)

/-- The nine parameter windows are their whole arrays at every point: block index 0 on every axis. -/
theorem idx_pars : ∀ t : Fin cfg0.N,
    win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = 0 ∧ win0_8.index t (1 : Fin 3) = 0 ∧ win0_8.index t (2 : Fin 3) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 1) = 0 :=
  (by decide +kernel : ∀ t : Fin grid0.N, _)

theorem t_lt (t : Fin cfg0.N) : t.val < 500 := t.isLt

/-- The global row of local row r at point t. -/
abbrev grow (t : Fin cfg0.N) (r : Fin 2000) : Fin 1000000 :=
  ⟨t.val * 2000 + r.val, by have := t_lt t; have := r.isLt; omega⟩

/-! ## Each input block read where the output block's row says -/

/-- Contents read at equal references are the same contents. -/
theorem V_ref_congr (c : Dev nD) {b b' : Ref sig .tc} (h : b = b') : HEq (V m c b) (V m c b') := by
  subst h; rfl

/-- Window 0's array is `main_v78`: what the region finds there, under either name. -/
theorem Vw0 (c : Dev nD) : (V m c (Pipeline.arrRef spec0 0) : S1000000x32.Idx → EReal) = V m c main_v78 :=
  eq_of_heq (V_ref_congr m c (rfl : Pipeline.arrRef spec0 (0 : Fin 14) = main_v78))

theorem iblk0_at (c : Dev nD) (t : Fin cfg0.N) (r : Fin 2000) (p : Fin 32) :
    iblk m c 0 t (ix2 r p) = V m c main_v78 (ix2 (grow t r) p) := by
  have e : ((cfg0.win 0).blk t).view.emb (ix2 r p) = (ix2 (grow t r) p : S1000000x32.Idx) := by
    obtain ⟨e0, e1, -⟩ := idx_rows t
    funext ax; apply Fin.ext
    match ax with
    | ⟨0, _⟩ => show win0_0.index t (0 : Fin 2) * 2000 + 1 * r.val = t.val * 2000 + r.val; rw [e0]; omega
    | ⟨1, _⟩ => show win0_0.index t (1 : Fin 2) * 32 + 1 * p.val = p.val; rw [e1]; omega
  unfold iblk
  rw [View.read_apply, e]
  refine (cast_eq _ _).trans ?_
  exact congrFun (Vw0 m c) (ix2 (grow t r) p)

/-- Window 1's array is `main_v85`: what the region finds there, under either name. -/
theorem Vw1 (c : Dev nD) : (V m c (Pipeline.arrRef spec0 1) : S1000000x32.Idx → EReal) = V m c main_v85 :=
  eq_of_heq (V_ref_congr m c (rfl : Pipeline.arrRef spec0 (1 : Fin 14) = main_v85))

theorem iblk1_at (c : Dev nD) (t : Fin cfg0.N) (r : Fin 2000) (p : Fin 32) :
    iblk m c 1 t (ix2 r p) = V m c main_v85 (ix2 (grow t r) p) := by
  have e : ((cfg0.win 1).blk t).view.emb (ix2 r p) = (ix2 (grow t r) p : S1000000x32.Idx) := by
    obtain ⟨-, -, e0, e1, -⟩ := idx_rows t
    funext ax; apply Fin.ext
    match ax with
    | ⟨0, _⟩ => show win0_1.index t (0 : Fin 2) * 2000 + 1 * r.val = t.val * 2000 + r.val; rw [e0]; omega
    | ⟨1, _⟩ => show win0_1.index t (1 : Fin 2) * 32 + 1 * p.val = p.val; rw [e1]; omega
  unfold iblk
  rw [View.read_apply, e]
  refine (cast_eq _ _).trans ?_
  exact congrFun (Vw1 m c) (ix2 (grow t r) p)

/-- Window 2's array is `main_arg0`: what the region finds there, under either name. -/
theorem Vw2 (c : Dev nD) : (V m c (Pipeline.arrRef spec0 2) : S1000000x76.Idx → EReal) = V m c main_arg0 :=
  eq_of_heq (V_ref_congr m c (rfl : Pipeline.arrRef spec0 (2 : Fin 14) = main_arg0))

theorem iblk2_at (c : Dev nD) (t : Fin cfg0.N) (r : Fin 2000) (p : Fin 76) :
    iblk m c 2 t (ix2 r p) = V m c main_arg0 (ix2 (grow t r) p) := by
  have e : ((cfg0.win 2).blk t).view.emb (ix2 r p) = (ix2 (grow t r) p : S1000000x76.Idx) := by
    obtain ⟨-, -, -, -, e0, e1, -⟩ := idx_rows t
    funext ax; apply Fin.ext
    match ax with
    | ⟨0, _⟩ => show win0_2.index t (0 : Fin 2) * 2000 + 1 * r.val = t.val * 2000 + r.val; rw [e0]; omega
    | ⟨1, _⟩ => show win0_2.index t (1 : Fin 2) * 76 + 1 * p.val = p.val; rw [e1]; omega
  unfold iblk
  rw [View.read_apply, e]
  refine (cast_eq _ _).trans ?_
  exact congrFun (Vw2 m c) (ix2 (grow t r) p)

/-- Window 3's array is `main_v106`: what the region finds there, under either name. -/
theorem Vw3 (c : Dev nD) : (V m c (Pipeline.arrRef spec0 3) : S1000000x64.Idx → EReal) = V m c main_v106 :=
  eq_of_heq (V_ref_congr m c (rfl : Pipeline.arrRef spec0 (3 : Fin 14) = main_v106))

theorem iblk3_at (c : Dev nD) (t : Fin cfg0.N) (r : Fin 2000) (k : Fin 64) :
    iblk m c 3 t (ix2 r k) = V m c main_v106 (ix2 (grow t r) k) := by
  have e : ((cfg0.win 3).blk t).view.emb (ix2 r k) = (ix2 (grow t r) k : S1000000x64.Idx) := by
    obtain ⟨-, -, -, -, -, -, e0, e1, -⟩ := idx_rows t
    funext ax; apply Fin.ext
    match ax with
    | ⟨0, _⟩ => show win0_3.index t (0 : Fin 2) * 2000 + 1 * r.val = t.val * 2000 + r.val; rw [e0]; omega
    | ⟨1, _⟩ => show win0_3.index t (1 : Fin 2) * 64 + 1 * k.val = k.val; rw [e1]; omega
  unfold iblk
  rw [View.read_apply, e]
  refine (cast_eq _ _).trans ?_
  exact congrFun (Vw3 m c) (ix2 (grow t r) k)

/-- Window 4's array is `main_arg4`: what the region finds there, under either name. -/
theorem Vw4 (c : Dev nD) : (V m c (Pipeline.arrRef spec0 4) : S2x32x64.Idx → EReal) = V m c main_arg4 :=
  eq_of_heq (V_ref_congr m c (rfl : Pipeline.arrRef spec0 (4 : Fin 14) = main_arg4))

theorem iblk4_at (c : Dev nD) (t : Fin cfg0.N) (a : Fin 2) (p : Fin 32) (q : Fin 64) :
    iblk m c 4 t (ix3 a p q) = V m c main_arg4 (ix3 a p q) := by
  have e : ((cfg0.win 4).blk t).view.emb (ix3 a p q) = (ix3 a p q : S2x32x64.Idx) := by
    obtain ⟨e0, e1, e2, -⟩ := idx_pars t
    funext ax; apply Fin.ext
    match ax with
    | ⟨0, _⟩ => show win0_4.index t (0 : Fin 3) * 2 + 1 * a.val = a.val; rw [e0]; omega
    | ⟨1, _⟩ => show win0_4.index t (1 : Fin 3) * 32 + 1 * p.val = p.val; rw [e1]; omega
    | ⟨2, _⟩ => show win0_4.index t (2 : Fin 3) * 64 + 1 * q.val = q.val; rw [e2]; omega
  unfold iblk
  rw [View.read_apply, e]
  refine (cast_eq _ _).trans ?_
  exact congrFun (Vw4 m c) (ix3 a p q)

/-- Window 5's array is `main_arg5`: what the region finds there, under either name. -/
theorem Vw5 (c : Dev nD) : (V m c (Pipeline.arrRef spec0 5) : S2x76x64.Idx → EReal) = V m c main_arg5 :=
  eq_of_heq (V_ref_congr m c (rfl : Pipeline.arrRef spec0 (5 : Fin 14) = main_arg5))

theorem iblk5_at (c : Dev nD) (t : Fin cfg0.N) (a : Fin 2) (p : Fin 76) (q : Fin 64) :
    iblk m c 5 t (ix3 a p q) = V m c main_arg5 (ix3 a p q) := by
  have e : ((cfg0.win 5).blk t).view.emb (ix3 a p q) = (ix3 a p q : S2x76x64.Idx) := by
    obtain ⟨-, -, -, e0, e1, e2, -⟩ := idx_pars t
    funext ax; apply Fin.ext
    match ax with
    | ⟨0, _⟩ => show win0_5.index t (0 : Fin 3) * 2 + 1 * a.val = a.val; rw [e0]; omega
    | ⟨1, _⟩ => show win0_5.index t (1 : Fin 3) * 76 + 1 * p.val = p.val; rw [e1]; omega
    | ⟨2, _⟩ => show win0_5.index t (2 : Fin 3) * 64 + 1 * q.val = q.val; rw [e2]; omega
  unfold iblk
  rw [View.read_apply, e]
  refine (cast_eq _ _).trans ?_
  exact congrFun (Vw5 m c) (ix3 a p q)

/-- Window 6's array is `main_arg6`: what the region finds there, under either name. -/
theorem Vw6 (c : Dev nD) : (V m c (Pipeline.arrRef spec0 6) : S2x64.Idx → EReal) = V m c main_arg6 :=
  eq_of_heq (V_ref_congr m c (rfl : Pipeline.arrRef spec0 (6 : Fin 14) = main_arg6))

theorem iblk6_at (c : Dev nD) (t : Fin cfg0.N) (a : Fin 2) (q : Fin 64) :
    iblk m c 6 t (ix2 a q) = V m c main_arg6 (ix2 a q) := by
  have e : ((cfg0.win 6).blk t).view.emb (ix2 a q) = (ix2 a q : S2x64.Idx) := by
    obtain ⟨-, -, -, -, -, -, e0, e1, -⟩ := idx_pars t
    funext ax; apply Fin.ext
    match ax with
    | ⟨0, _⟩ => show win0_6.index t (0 : Fin 2) * 2 + 1 * a.val = a.val; rw [e0]; omega
    | ⟨1, _⟩ => show win0_6.index t (1 : Fin 2) * 64 + 1 * q.val = q.val; rw [e1]; omega
  unfold iblk
  rw [View.read_apply, e]
  refine (cast_eq _ _).trans ?_
  exact congrFun (Vw6 m c) (ix2 a q)

/-- Window 7's array is `main_arg13`: what the region finds there, under either name. -/
theorem Vw7 (c : Dev nD) : (V m c (Pipeline.arrRef spec0 7) : S4x64.Idx → EReal) = V m c main_arg13 :=
  eq_of_heq (V_ref_congr m c (rfl : Pipeline.arrRef spec0 (7 : Fin 14) = main_arg13))

theorem iblk7_at (c : Dev nD) (t : Fin cfg0.N) (a : Fin 4) (q : Fin 64) :
    iblk m c 7 t (ix2 a q) = V m c main_arg13 (ix2 a q) := by
  have e : ((cfg0.win 7).blk t).view.emb (ix2 a q) = (ix2 a q : S4x64.Idx) := by
    obtain ⟨-, -, -, -, -, -, -, -, e0, e1, -⟩ := idx_pars t
    funext ax; apply Fin.ext
    match ax with
    | ⟨0, _⟩ => show win0_7.index t (0 : Fin 2) * 4 + 1 * a.val = a.val; rw [e0]; omega
    | ⟨1, _⟩ => show win0_7.index t (1 : Fin 2) * 64 + 1 * q.val = q.val; rw [e1]; omega
  unfold iblk
  rw [View.read_apply, e]
  refine (cast_eq _ _).trans ?_
  exact congrFun (Vw7 m c) (ix2 a q)

/-- Window 8's array is `main_v107`: what the region finds there, under either name. -/
theorem Vw8 (c : Dev nD) : (V m c (Pipeline.arrRef spec0 8) : S2x64x64.Idx → EReal) = V m c main_v107 :=
  eq_of_heq (V_ref_congr m c (rfl : Pipeline.arrRef spec0 (8 : Fin 14) = main_v107))

theorem iblk8_at (c : Dev nD) (t : Fin cfg0.N) (a : Fin 2) (q : Fin 64) (k : Fin 64) :
    iblk m c 8 t (ix3 a q k) = V m c main_v107 (ix3 a q k) := by
  have e : ((cfg0.win 8).blk t).view.emb (ix3 a q k) = (ix3 a q k : S2x64x64.Idx) := by
    obtain ⟨-, -, -, -, -, -, -, -, -, -, e0, e1, e2, -⟩ := idx_pars t
    funext ax; apply Fin.ext
    match ax with
    | ⟨0, _⟩ => show win0_8.index t (0 : Fin 3) * 2 + 1 * a.val = a.val; rw [e0]; omega
    | ⟨1, _⟩ => show win0_8.index t (1 : Fin 3) * 64 + 1 * q.val = q.val; rw [e1]; omega
    | ⟨2, _⟩ => show win0_8.index t (2 : Fin 3) * 64 + 1 * k.val = k.val; rw [e2]; omega
  unfold iblk
  rw [View.read_apply, e]
  refine (cast_eq _ _).trans ?_
  exact congrFun (Vw8 m c) (ix3 a q k)

/-- Window 9's array is `main_v108`: what the region finds there, under either name. -/
theorem Vw9 (c : Dev nD) : (V m c (Pipeline.arrRef spec0 9) : S2x64.Idx → EReal) = V m c main_v108 :=
  eq_of_heq (V_ref_congr m c (rfl : Pipeline.arrRef spec0 (9 : Fin 14) = main_v108))

theorem iblk9_at (c : Dev nD) (t : Fin cfg0.N) (a : Fin 2) (k : Fin 64) :
    iblk m c 9 t (ix2 a k) = V m c main_v108 (ix2 a k) := by
  have e : ((cfg0.win 9).blk t).view.emb (ix2 a k) = (ix2 a k : S2x64.Idx) := by
    obtain ⟨-, -, -, -, -, -, -, -, -, -, -, -, -, e0, e1, -⟩ := idx_pars t
    funext ax; apply Fin.ext
    match ax with
    | ⟨0, _⟩ => show win0_9.index t (0 : Fin 2) * 2 + 1 * a.val = a.val; rw [e0]; omega
    | ⟨1, _⟩ => show win0_9.index t (1 : Fin 2) * 64 + 1 * k.val = k.val; rw [e1]; omega
  unfold iblk
  rw [View.read_apply, e]
  refine (cast_eq _ _).trans ?_
  exact congrFun (Vw9 m c) (ix2 a k)

/-- Window 10's array is `main_arg15`: what the region finds there, under either name. -/
theorem Vw10 (c : Dev nD) : (V m c (Pipeline.arrRef spec0 10) : S4x64.Idx → EReal) = V m c main_arg15 :=
  eq_of_heq (V_ref_congr m c (rfl : Pipeline.arrRef spec0 (10 : Fin 14) = main_arg15))

theorem iblk10_at (c : Dev nD) (t : Fin cfg0.N) (a : Fin 4) (k : Fin 64) :
    iblk m c 10 t (ix2 a k) = V m c main_arg15 (ix2 a k) := by
  have e : ((cfg0.win 10).blk t).view.emb (ix2 a k) = (ix2 a k : S4x64.Idx) := by
    obtain ⟨-, -, -, -, -, -, -, -, -, -, -, -, -, -, -, e0, e1, -⟩ := idx_pars t
    funext ax; apply Fin.ext
    match ax with
    | ⟨0, _⟩ => show win0_10.index t (0 : Fin 2) * 4 + 1 * a.val = a.val; rw [e0]; omega
    | ⟨1, _⟩ => show win0_10.index t (1 : Fin 2) * 64 + 1 * k.val = k.val; rw [e1]; omega
  unfold iblk
  rw [View.read_apply, e]
  refine (cast_eq _ _).trans ?_
  exact congrFun (Vw10 m c) (ix2 a k)

/-- Window 11's array is `main_arg16`: what the region finds there, under either name. -/
theorem Vw11 (c : Dev nD) : (V m c (Pipeline.arrRef spec0 11) : S64x2.Idx → EReal) = V m c main_arg16 :=
  eq_of_heq (V_ref_congr m c (rfl : Pipeline.arrRef spec0 (11 : Fin 14) = main_arg16))

theorem iblk11_at (c : Dev nD) (t : Fin cfg0.N) (k : Fin 64) (j : Fin 2) :
    iblk m c 11 t (ix2 k j) = V m c main_arg16 (ix2 k j) := by
  have e : ((cfg0.win 11).blk t).view.emb (ix2 k j) = (ix2 k j : S64x2.Idx) := by
    obtain ⟨-, -, -, -, -, -, -, -, -, -, -, -, -, -, -, -, -, e0, e1, -⟩ := idx_pars t
    funext ax; apply Fin.ext
    match ax with
    | ⟨0, _⟩ => show win0_11.index t (0 : Fin 2) * 64 + 1 * k.val = k.val; rw [e0]; omega
    | ⟨1, _⟩ => show win0_11.index t (1 : Fin 2) * 2 + 1 * j.val = j.val; rw [e1]; omega
  unfold iblk
  rw [View.read_apply, e]
  refine (cast_eq _ _).trans ?_
  exact congrFun (Vw11 m c) (ix2 k j)

/-- Window 12's array is `main_arg17`: what the region finds there, under either name. -/
theorem Vw12 (c : Dev nD) : (V m c (Pipeline.arrRef spec0 12) : S2.Idx → EReal) = V m c main_arg17 :=
  eq_of_heq (V_ref_congr m c (rfl : Pipeline.arrRef spec0 (12 : Fin 14) = main_arg17))

theorem iblk12_at (c : Dev nD) (t : Fin cfg0.N) (j : Fin 2) :
    iblk m c 12 t (ix1 j) = V m c main_arg17 (ix1 j) := by
  have e : ((cfg0.win 12).blk t).view.emb (ix1 j) = (ix1 j : S2.Idx) := by
    obtain ⟨-, -, -, -, -, -, -, -, -, -, -, -, -, -, -, -, -, -, -, e0⟩ := idx_pars t
    funext ax; apply Fin.ext
    match ax with
    | ⟨0, _⟩ => show win0_12.index t (0 : Fin 1) * 2 + 1 * j.val = j.val; rw [e0]; omega
  unfold iblk
  rw [View.read_apply, e]
  refine (cast_eq _ _).trans ?_
  exact congrFun (Vw12 m c) (ix1 j)

/-! ## What a point writes back, the cover, the array -/

/-- Entry (R, j) of `outArr`: the network on row R of the four row arrays. -/
theorem outArr_ix2 (A0 A1 : S1000000x32.Idx → EReal) (A2 : S1000000x76.Idx → EReal) (A3 : S1000000x64.Idx → EReal)
    (A4 : S2x32x64.Idx → EReal) (A5 : S2x76x64.Idx → EReal) (A6 : S2x64.Idx → EReal) (A7 : S4x64.Idx → EReal)
    (A8 : S2x64x64.Idx → EReal) (A9 : S2x64.Idx → EReal) (A10 : S4x64.Idx → EReal) (A11 : S64x2.Idx → EReal)
    (A12 : S2.Idx → EReal) (R : Fin 1000000) (j : Fin 2) :
    outArr A0 A1 A2 A3 A4 A5 A6 A7 A8 A9 A10 A11 A12 (ix2 R j)
      = net (fun p => A0 (ix2 R p)) (fun p => A1 (ix2 R p)) (fun p => A2 (ix2 R p)) (fun k => A3 (ix2 R k))
          (fun a p q => A4 (ix3 a p q)) (fun a p q => A5 (ix3 a p q)) (fun a q => A6 (ix2 a q)) (fun a q => A7 (ix2 a q))
          (fun a q k => A8 (ix3 a q k)) (fun a k => A9 (ix2 a k)) (fun a k => A10 (ix2 a k)) (fun k j => A11 (ix2 k j))
          (fun j => A12 (ix1 j)) j := rfl

/-- Local entry (r, j) of the block point t stores is global entry (2000·t + r, j) of `outArr` of the operand arrays. -/
theorem block_at (c : Dev nD) (t : Fin cfg0.N) (r : Fin 2000) (j : Fin 2) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = outArr (V m c main_v78) (V m c main_v85) (V m c main_arg0) (V m c main_v106) (V m c main_arg4) (V m c main_arg5)
        (V m c main_arg6) (V m c main_arg13) (V m c main_v107) (V m c main_v108) (V m c main_arg15) (V m c main_arg16)
        (V m c main_arg17) (ix2 (grow t r) j) := by
  have f0 : (fun (p : Fin 32) => iblk m c 0 t (ix2 r p)) = fun (p : Fin 32) => V m c main_v78 (ix2 (grow t r) p) :=
    funext fun p => iblk0_at m c t r p
  have f1 : (fun (p : Fin 32) => iblk m c 1 t (ix2 r p)) = fun (p : Fin 32) => V m c main_v85 (ix2 (grow t r) p) :=
    funext fun p => iblk1_at m c t r p
  have f2 : (fun (p : Fin 76) => iblk m c 2 t (ix2 r p)) = fun (p : Fin 76) => V m c main_arg0 (ix2 (grow t r) p) :=
    funext fun p => iblk2_at m c t r p
  have f3 : (fun (k : Fin 64) => iblk m c 3 t (ix2 r k)) = fun (k : Fin 64) => V m c main_v106 (ix2 (grow t r) k) :=
    funext fun k => iblk3_at m c t r k
  have f4 : (fun (a : Fin 2) (p : Fin 32) (q : Fin 64) => iblk m c 4 t (ix3 a p q)) = fun (a : Fin 2) (p : Fin 32) (q : Fin 64) => V m c main_arg4 (ix3 a p q) :=
    funext fun a => funext fun p => funext fun q => iblk4_at m c t a p q
  have f5 : (fun (a : Fin 2) (p : Fin 76) (q : Fin 64) => iblk m c 5 t (ix3 a p q)) = fun (a : Fin 2) (p : Fin 76) (q : Fin 64) => V m c main_arg5 (ix3 a p q) :=
    funext fun a => funext fun p => funext fun q => iblk5_at m c t a p q
  have f6 : (fun (a : Fin 2) (q : Fin 64) => iblk m c 6 t (ix2 a q)) = fun (a : Fin 2) (q : Fin 64) => V m c main_arg6 (ix2 a q) :=
    funext fun a => funext fun q => iblk6_at m c t a q
  have f7 : (fun (a : Fin 4) (q : Fin 64) => iblk m c 7 t (ix2 a q)) = fun (a : Fin 4) (q : Fin 64) => V m c main_arg13 (ix2 a q) :=
    funext fun a => funext fun q => iblk7_at m c t a q
  have f8 : (fun (a : Fin 2) (q : Fin 64) (k : Fin 64) => iblk m c 8 t (ix3 a q k)) = fun (a : Fin 2) (q : Fin 64) (k : Fin 64) => V m c main_v107 (ix3 a q k) :=
    funext fun a => funext fun q => funext fun k => iblk8_at m c t a q k
  have f9 : (fun (a : Fin 2) (k : Fin 64) => iblk m c 9 t (ix2 a k)) = fun (a : Fin 2) (k : Fin 64) => V m c main_v108 (ix2 a k) :=
    funext fun a => funext fun k => iblk9_at m c t a k
  have f10 : (fun (a : Fin 4) (k : Fin 64) => iblk m c 10 t (ix2 a k)) = fun (a : Fin 4) (k : Fin 64) => V m c main_arg15 (ix2 a k) :=
    funext fun a => funext fun k => iblk10_at m c t a k
  have f11 : (fun (k : Fin 64) (j : Fin 2) => iblk m c 11 t (ix2 k j)) = fun (k : Fin 64) (j : Fin 2) => V m c main_arg16 (ix2 k j) :=
    funext fun k => funext fun j => iblk11_at m c t k j
  have f12 : (fun (j : Fin 2) => iblk m c 12 t (ix1 j)) = fun (j : Fin 2) => V m c main_arg17 (ix1 j) :=
    funext fun j => iblk12_at m c t j
  rw [Row.out_at, outArr_ix2, f0, f1, f2, f3, f4, f5, f6, f7, f8, f9, f10, f11, f12]

/-- The output window is not cut: the part of a block that is written back is the block. -/
theorem cut13 (t : Fin cfg0.N) (X : S2000x2.Idx → EReal) (r : Fin 2000) (j : Fin 2) :
    (cfg0.win 13).cut (grid0.coords t) X (ix2 r j) = X (ix2 r j) := rfl

/-- Local entry (r, j) of the output block at point t sits at global entry (2000·t + r, j). -/
theorem emb13 (t : Fin cfg0.N) (r : Fin 2000) (j : Fin 2) :
    ((cfg0.win 13).blk t).view.emb (ix2 r j) = (ix2 (grow t r) j : S1000000x2.Idx) := by
  obtain ⟨-, -, -, -, -, -, -, -, e0, e1⟩ := idx_rows t
  funext a; apply Fin.ext
  match a with
  | ⟨0, _⟩ => show win0_13.index t (0 : Fin 2) * 2000 + 1 * r.val = t.val * 2000 + r.val; rw [e0]; omega
  | ⟨1, _⟩ => show win0_13.index t (1 : Fin 2) * 2 + 1 * j.val = j.val; rw [e1]; omega

/-- WHAT POINT t WRITES BACK is block t of `outArr` of the operand arrays as the region finds them. -/
theorem flushed13_eq (c : Dev nD) (t : Fin cfg0.N) :
    (dats m 0 c).flushed 13 t = ((cfg0.win 13).blk t).view.read (Elt Ideal)
      (outArr (V m c main_v78) (V m c main_v85) (V m c main_arg0) (V m c main_v106) (V m c main_arg4) (V m c main_arg5)
        (V m c main_arg6) (V m c main_arg13) (V m c main_v107) (V m c main_v108) (V m c main_arg15) (V m c main_arg16)
        (V m c main_arg17)) := by
  rw [Value.flushed13]
  funext y
  obtain ⟨r, j, rfl⟩ : ∃ (r : Fin 2000) (j : Fin 2), y = ix2 r j := ⟨y 0, y 1, eq_ix2 y⟩
  rw [View.read_apply, emb13 t r j]
  exact ((cut13 t _ r j).trans (block_at m c t r j)).trans (cast_eq _ _).symm

/-- An index of the result is in point t's block iff each coordinate is in the block's range on its axis. -/
theorem mem_blk13 (t : Fin cfg0.N) (i : S1000000x2.Idx) :
    i ∈ ((cfg0.win 13).blk t).view.set ↔ ∀ a : Fin 2, win0_13.index t a * S2000x2.size a ≤ (i a).val
      ∧ (i a).val < win0_13.index t a * S2000x2.size a + S2000x2.size a := by
  show i ∈ ((View.whole main_v109).slice (win0_13.rect t)).set ↔ _
  rw [View.set_slice_whole, Rect.mem_set_unit]
  exact Iff.rfl

/-- Every index of the result is in the block of the point its row divided by 2000 names. -/
theorem cover13 (i : S1000000x2.Idx) :
    ∃ t : Fin cfg0.N, (cfg0.win 13).flush t = true ∧ i ∈ ((cfg0.win 13).blk t).view.set := by
  have hi0 : (i 0).val < 1000000 := (i 0).isLt
  have hi1 : (i 1).val < 2 := (i 1).isLt
  have ht : (i 0).val / 2000 < 500 := by omega
  refine ⟨⟨(i 0).val / 2000, ht⟩, flush0_13 _, ?_⟩
  rw [mem_blk13]
  obtain ⟨-, -, -, -, -, -, -, -, e0, e1⟩ := idx_rows ⟨(i 0).val / 2000, ht⟩
  intro a
  match a with
  | ⟨0, _⟩ =>
    show win0_13.index ⟨(i 0).val / 2000, ht⟩ (0 : Fin 2) * 2000 ≤ (i 0).val
      ∧ (i 0).val < win0_13.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_13.index ⟨(i 0).val / 2000, ht⟩ (1 : Fin 2) * 2 ≤ (i 1).val
      ∧ (i 1).val < win0_13.index ⟨(i 0).val / 2000, ht⟩ (1 : Fin 2) * 2 + 2
    rw [e1]; omega

/-- THE RESULT ARRAY after the run. -/
theorem final13 (c : Dev nD) :
    (dats m 0 c).arrAt 13 cfg0.N
      = outArr (V m c main_v78) (V m c main_v85) (V m c main_arg0) (V m c main_v106) (V m c main_arg4) (V m c main_arg5)
        (V m c main_arg6) (V m c main_arg13) (V m c main_v107) (V m c main_v108) (V m c main_arg15) (V m c main_arg16)
        (V m c main_arg17) :=
  (dats m 0 c).arrAt_eq_of_cover 13 _ (fun t _ => flushed13_eq m c t) cover13

end Cert.KernelIdeal.Arr

end
-- ==== Proof.RefRow.lean ====
/-
  THE REFERENCE, ONE FLOW ROW AT A TIME.

  The reference program is a line of host operations on whole arrays. Read at row R, outside the two gathers of the
  embedding table, the two gathers of the host branch's hidden table and that table itself (which this file never opens:
  they stay the named stages they are), it is the network of Spec.lean on row R — with two differences in spelling that
  change nothing over the extended reals: conv1 adds its first bias after the first two products, and conv2 adds its two
  host products apart instead of summed first. Each stage is read with the layout facts of LibRowReads.lean (a stacked
  parameter's slab or row sliced out and re-laid, a vector broadcast down the rows, a plain product at an entry).
-/
import proofs.«110349_j84696755077152_2_alg».proof.Proof.ReadPatched
import proofs.«110349_j84696755077152_2_alg».proof.Proof.Spec
import proofs.«110349_j84696755077152_2_alg».proof.Proof.LibRowReads

noncomputable section

open scoped BigOperators

namespace Cert.ReferenceIdeal.Row

open Cert.ReferenceIdeal Cert.ReferenceIdeal.ReadP Idealize.ShloMosaic Idealize.ShloMosaic.ValueIdx Cert.Net Cert.Lib

variable (x0 : S1000000x76.Idx → EReal) (x1 x2 : S1000000.Idx → BitVec 32) (x3 : S50000x32.Idx → EReal)
  (x4 : S2x32x64.Idx → EReal) (x5 : S2x76x64.Idx → EReal) (x6 : S2x64.Idx → EReal) (x7 : S2x76x64.Idx → EReal)
  (x8 : S2x32x64.Idx → EReal) (x9 : S2x64.Idx → EReal) (x10 x11 : S4x64x64.Idx → EReal)
  (x12 x13 x14 x15 : S4x64.Idx → EReal) (x16 : S64x2.Idx → EReal) (x17 : S2.Idx → EReal)

/-! ## The four products' records -/

theorem dg32 {φ₁ φ₂ : FTy} (a : FVec Ideal S1000000x32 φ₁) (b : FVec Ideal S32x64 φ₂) (R : Fin 1000000) (q : Fin 64) :
    Host.dotGeneral dot_S1000000x32_S32x64_S1000000x64_1_0_0_1_n_n none a b (ix2 R q)
      = ∑ p : Fin 32, a (ix2 R p) * b (ix2 p q) :=
  dotGeneral_at _ rfl rfl rfl rfl rfl rfl none a b R q

theorem dg76 {φ₁ φ₂ : FTy} (a : FVec Ideal S1000000x76 φ₁) (b : FVec Ideal S76x64 φ₂) (R : Fin 1000000) (q : Fin 64) :
    Host.dotGeneral dot_S1000000x76_S76x64_S1000000x64_1_0_0_1_n_n none a b (ix2 R q)
      = ∑ p : Fin 76, a (ix2 R p) * b (ix2 p q) :=
  dotGeneral_at _ rfl rfl rfl rfl rfl rfl none a b R q

theorem dg64 {φ₁ φ₂ : FTy} (a : FVec Ideal S1000000x64 φ₁) (b : FVec Ideal S64x64 φ₂) (R : Fin 1000000) (q : Fin 64) :
    Host.dotGeneral dot_S1000000x64_S64x64_S1000000x64_1_0_0_1_n_n none a b (ix2 R q)
      = ∑ p : Fin 64, a (ix2 R p) * b (ix2 p q) :=
  dotGeneral_at _ rfl rfl rfl rfl rfl rfl none a b R q

theorem dg2 {φ₁ φ₂ : FTy} (a : FVec Ideal S1000000x64 φ₁) (b : FVec Ideal S64x2 φ₂) (R : Fin 1000000) (j : Fin 2) :
    Host.dotGeneral dot_S1000000x64_S64x2_S1000000x2_1_0_0_1_n_n none a b (ix2 R j)
      = ∑ p : Fin 64, a (ix2 R p) * b (ix2 p j) :=
  dotGeneral_at _ rfl rfl rfl rfl rfl rfl none a b R j

/-! ## Broadcasts and small indices, in the program's own spelling -/

/-- A [64] vector made a row and repeated down the million rows: at (R, q), the vector's entry q. -/
theorem vecRows64 {α : Type} (h1 : S64.BroadcastsInDim S1x64 ![1]) (h2 : S1x64.BroadcastsInDim S1000000x64 ![0, 1])
    (v : S64.Idx → α) (R : Fin 1000000) (q : Fin 64) :
    broadcastInDim S1000000x64 ![0, 1] h2 (broadcastInDim S1x64 ![1] h1 v) (ix2 R q) = v (ix1 q) :=
  bcastInDim_vecRows_apply h1 h2 v R q

/-- The same for the head's [2] bias. -/
theorem vecRows2 {α : Type} (h1 : S2.BroadcastsInDim S1x2 ![1]) (h2 : S1x2.BroadcastsInDim S1000000x2 ![0, 1])
    (v : S2.Idx → α) (R : Fin 1000000) (j : Fin 2) :
    broadcastInDim S1000000x2 ![0, 1] h2 (broadcastInDim S1x2 ![1] h1 v) (ix2 R j) = v (ix1 j) :=
  bcastInDim_vecRows_apply h1 h2 v R j

/-- A constant spread over a [64] vector. -/
theorem const64 (h : S_.BroadcastsInDim S64 ![]) (w : BitVec FTy.f32.bits) (j : S64.Idx) :
    broadcastInDim S64 ![] h (constant (F := Ideal) S_ .f32 w) j = Ideal.ofBits .f32 w :=
  bcast_const_apply h w j

/-- A constant spread over a [1000000, 64] array. -/
theorem constRows64 (h : S_.BroadcastsInDim S1000000x64 ![]) (w : BitVec FTy.f32.bits) (j : S1000000x64.Idx) :
    broadcastInDim S1000000x64 ![] h (constant (F := Ideal) S_ .f32 w) j = Ideal.ofBits .f32 w :=
  bcast_const_apply h w j

theorem fin2_0 (h : 0 < 2) : (⟨0, h⟩ : Fin 2) = 0 := rfl
theorem fin2_1 (h : 1 < 2) : (⟨1, h⟩ : Fin 2) = 1 := rfl
theorem fin4_0 (h : 0 < 4) : (⟨0, h⟩ : Fin 4) = 0 := rfl
theorem fin4_1 (h : 1 < 4) : (⟨1, h⟩ : Fin 4) = 1 := rfl
theorem fin4_2 (h : 2 < 4) : (⟨2, h⟩ : Fin 4) = 2 := rfl
theorem fin4_3 (h : 3 < 4) : (⟨3, h⟩ : Fin 4) = 3 := rfl

/-! ## The stages at an entry -/

/-- conv1's pre-activation: the six summands of the specification, the first bias added third. -/
theorem pre1_at (R : Fin 1000000) (q : Fin 64) :
    val_main_v38 (F := Ideal) x0 x1 x2 x3 x4 x5 x6 (ix2 R q)
      = pre1 (lin (fun p => val_main_v6 (F := Ideal) x1 x3 (ix2 R p)) (fun p => x4 (ix3 (0 : Fin 2) p q)))
          (lin (fun p => x0 (ix2 R p)) (fun p => x5 (ix3 (0 : Fin 2) p q)))
          (lin (fun p => val_main_v25 (F := Ideal) x2 x3 (ix2 R p)) (fun p => x4 (ix3 (1 : Fin 2) p q)))
          (lin (fun p => x0 (ix2 R p)) (fun p => x5 (ix3 (1 : Fin 2) p q)))
          (x6 (ix2 (0 : Fin 2) q)) (x6 (ix2 (1 : Fin 2) q)) := by
  rw [← pre1_ref]
  unfold lin
  simp only [val_main_v38, val_main_v37, val_main_v36, val_main_v35, val_main_v34, val_main_v33, val_main_v32, val_main_v31, val_main_v30, val_main_v29, val_main_v28, val_main_v27, val_main_v26, val_main_v18, val_main_v17, val_main_v16, val_main_v15, val_main_v14, val_main_v13, val_main_v12, val_main_v11, val_main_v10, val_main_v9, val_main_v8, val_main_v7, addf_apply, dg32, dg76,
    slab_mat_apply x4 0 (by decide), slab_mat_apply x4 1 (by decide), slab_mat_apply x5 0 (by decide),
    slab_mat_apply x5 1 (by decide), fin2_0, fin2_1]
  rw [vecRows64, vecRows64]
  simp only [row_vec_apply x6 0 (by decide), row_vec_apply x6 1 (by decide), fin2_0, fin2_1]

/-- The first hidden row: batch norm with the rows of the first flow table, max with 0. -/
theorem h1_at (R : Fin 1000000) (q : Fin 64) :
    val_main_v109 (F := Ideal) x0 x1 x2 x3 x4 x5 x6 x13 (ix2 R q)
      = bnr (x13 (ix2 (0 : Fin 4) q)) (x13 (ix2 (1 : Fin 4) q)) (x13 (ix2 (2 : Fin 4) q)) (x13 (ix2 (3 : Fin 4) q))
          (val_main_v38 (F := Ideal) x0 x1 x2 x3 x4 x5 x6 (ix2 R q)) := by
  unfold bnr eps zero
  simp only [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_call0_v0, val_main_call0_cst, val_main_cst_10,
    maximumf_apply, addf_apply, mulf_apply, subf_apply]
  rw [vecRows64, vecRows64, vecRows64, vecRows64, constRows64]
  simp only [hostRsqrt_apply, addf_apply]
  rw [const64]
  simp only [row_vec_apply x13 0 (by decide), row_vec_apply x13 1 (by decide), row_vec_apply x13 2 (by decide),
    row_vec_apply x13 3 (by decide), fin4_0, fin4_1, fin4_2, fin4_3]

/-- The [64, 64] products in the specification's spelling: a row against a column. -/
theorem dgl64 {φ₁ φ₂ : FTy} (a : FVec Ideal S1000000x64 φ₁) (b : FVec Ideal S64x64 φ₂) (R : Fin 1000000) (q : Fin 64) :
    Host.dotGeneral dot_S1000000x64_S64x64_S1000000x64_1_0_0_1_n_n none a b (ix2 R q)
      = lin (fun p => a (ix2 R p)) (fun p => b (ix2 p q)) := dg64 a b R q

theorem dgl2 {φ₁ φ₂ : FTy} (a : FVec Ideal S1000000x64 φ₁) (b : FVec Ideal S64x2 φ₂) (R : Fin 1000000) (j : Fin 2) :
    Host.dotGeneral dot_S1000000x64_S64x2_S1000000x2_1_0_0_1_n_n none a b (ix2 R j)
      = lin (fun p => a (ix2 R p)) (fun p => b (ix2 p j)) := dg2 a b R j

/-- Column k of slab 0 of the host weights of conv2, as the reference slices and re-lays it. -/
theorem w142 (k : Fin 64) :
    (fun p : Fin 64 => val_main_v142 (F := Ideal) x10 (ix2 p k)) = fun p => x10 (ix3 (0 : Fin 4) p k) :=
  funext fun p => by unfold val_main_v142 val_main_v141; exact slab_mat_apply x10 0 (by decide) _ _ p k

/-- Column k of slab 1 of the host weights of conv2. -/
theorem w161 (k : Fin 64) :
    (fun p : Fin 64 => val_main_v161 (F := Ideal) x10 (ix2 p k)) = fun p => x10 (ix3 (1 : Fin 4) p k) :=
  funext fun p => by unfold val_main_v161 val_main_v160; exact slab_mat_apply x10 1 (by decide) _ _ p k

/-- Column k of slab 0 of the flow weights of conv2. -/
theorem w145 (k : Fin 64) :
    (fun p : Fin 64 => val_main_v145 (F := Ideal) x11 (ix2 p k)) = fun p => x11 (ix3 (0 : Fin 4) p k) :=
  funext fun p => by unfold val_main_v145 val_main_v144; exact slab_mat_apply x11 0 (by decide) _ _ p k

/-- Column k of slab 1 of the flow weights of conv2. -/
theorem w165 (k : Fin 64) :
    (fun p : Fin 64 => val_main_v165 (F := Ideal) x11 (ix2 p k)) = fun p => x11 (ix3 (1 : Fin 4) p k) :=
  funext fun p => by unfold val_main_v165 val_main_v164; exact slab_mat_apply x11 1 (by decide) _ _ p k

/-- conv2's pre-activation: the host products of the two relations apart, each beside its flow product and bias. -/
theorem pre2_at (R : Fin 1000000) (k : Fin 64) :
    val_main_v172 (F := Ideal) x0 x1 x2 x3 x4 x5 x6 x7 x8 x9 x10 x11 x12 x13 x14 (ix2 R k)
      = pre2 (lin (fun q => val_main_v140 (F := Ideal) x0 x1 x2 x3 x7 x8 x9 x14 (ix2 R q)) (fun q => x10 (ix3 (0 : Fin 4) q k))
              + lin (fun q => val_main_v159 (F := Ideal) x0 x1 x2 x3 x7 x8 x9 x14 (ix2 R q)) (fun q => x10 (ix3 (1 : Fin 4) q k)))
          (lin (fun q => val_main_v109 (F := Ideal) x0 x1 x2 x3 x4 x5 x6 x13 (ix2 R q)) (fun q => x11 (ix3 (0 : Fin 4) q k)))
          (lin (fun q => val_main_v109 (F := Ideal) x0 x1 x2 x3 x4 x5 x6 x13 (ix2 R q)) (fun q => x11 (ix3 (1 : Fin 4) q k)))
          (x12 (ix2 (0 : Fin 4) k)) (x12 (ix2 (1 : Fin 4) k)) := by
  rw [← pre2_ref]
  unfold val_main_v172 val_main_v167 val_main_v163 val_main_v152 val_main_v147 val_main_v143 val_main_v146 val_main_v162
    val_main_v166
  generalize val_main_v140 (F := Ideal) x0 x1 x2 x3 x7 x8 x9 x14 = G0
  generalize val_main_v159 (F := Ideal) x0 x1 x2 x3 x7 x8 x9 x14 = G1
  generalize val_main_v109 (F := Ideal) x0 x1 x2 x3 x4 x5 x6 x13 = H1
  rw [addf_apply, addf_apply, addf_apply, addf_apply, addf_apply, dgl64, dgl64, dgl64, dgl64,
    w142 x10 k, w161 x10 k, w145 x11 k, w165 x11 k]
  unfold val_main_v151 val_main_v150 val_main_v171 val_main_v170
  rw [vecRows64, vecRows64]
  unfold val_main_v149 val_main_v148 val_main_v169 val_main_v168
  rw [row_vec_apply x12 0 (by decide), row_vec_apply x12 1 (by decide)]
  rfl

/-- The second hidden row: batch norm with the rows of the second flow table, max with 0. -/
theorem h2_at (R : Fin 1000000) (k : Fin 64) :
    val_main_v196 (F := Ideal) x0 x1 x2 x3 x4 x5 x6 x7 x8 x9 x10 x11 x12 x13 x14 x15 (ix2 R k)
      = bnr (x15 (ix2 (0 : Fin 4) k)) (x15 (ix2 (1 : Fin 4) k)) (x15 (ix2 (2 : Fin 4) k)) (x15 (ix2 (3 : Fin 4) k))
          (val_main_v172 (F := Ideal) x0 x1 x2 x3 x4 x5 x6 x7 x8 x9 x10 x11 x12 x13 x14 (ix2 R k)) := by
  unfold bnr eps zero
  unfold val_main_v196 val_main_v195 val_main_v192 val_main_v189 val_main_v183
  generalize val_main_v172 (F := Ideal) x0 x1 x2 x3 x4 x5 x6 x7 x8 x9 x10 x11 x12 x13 x14 = A
  rw [maximumf_apply, addf_apply, mulf_apply, mulf_apply, subf_apply]
  unfold val_main_v182 val_main_v181 val_main_v188 val_main_v187 val_main_v191 val_main_v190 val_main_v194 val_main_v193
    val_main_call2_v0 val_main_call2_cst
  rw [vecRows64, vecRows64, vecRows64, vecRows64, constRows64]
  unfold val_main_v186 val_main_v185 val_main_v184 val_main_cst_16
  rw [hostRsqrt_apply, addf_apply, const64]
  unfold val_main_v178 val_main_v177 val_main_v180 val_main_v179 val_main_v174 val_main_v173 val_main_v176 val_main_v175
  rw [row_vec_apply x15 0 (by decide), row_vec_apply x15 1 (by decide), row_vec_apply x15 2 (by decide),
    row_vec_apply x15 3 (by decide)]
  rfl

/-- The head: the second hidden row against the head's weights, plus its bias. -/
theorem head_at (R : Fin 1000000) (j : Fin 2) :
    val_main_v200 (F := Ideal) x0 x1 x2 x3 x4 x5 x6 x7 x8 x9 x10 x11 x12 x13 x14 x15 x16 x17 (ix2 R j)
      = lin (fun k => val_main_v196 (F := Ideal) x0 x1 x2 x3 x4 x5 x6 x7 x8 x9 x10 x11 x12 x13 x14 x15 (ix2 R k)) (fun k => x16 (ix2 k j)) + x17 (ix1 j) := by
  unfold val_main_v200 val_main_v197 val_main_v199 val_main_v198
  generalize val_main_v196 (F := Ideal) x0 x1 x2 x3 x4 x5 x6 x7 x8 x9 x10 x11 x12 x13 x14 x15 = H2
  rw [addf_apply, dgl2, vecRows2]

/-! ## The reference at an entry -/

/-- The first hidden row, entry by entry, is the specification's. -/
theorem h1_fun (R : Fin 1000000) :
    (fun q : Fin 64 => val_main_v109 (F := Ideal) x0 x1 x2 x3 x4 x5 x6 x13 (ix2 R q))
      = hid1 (fun p => val_main_v6 (F := Ideal) x1 x3 (ix2 R p)) (fun p => val_main_v25 (F := Ideal) x2 x3 (ix2 R p)) (fun p => x0 (ix2 R p))
          (fun a p q => x4 (ix3 a p q)) (fun a p q => x5 (ix3 a p q)) (fun a q => x6 (ix2 a q)) (fun a q => x13 (ix2 a q)) :=
  funext fun q => by
    rw [h1_at, pre1_at]
    rfl

/-- ENTRY (R, j) OF THE REFERENCE'S RESULT is the network on row R: of the two gathered embedding rows, the flow's
    feature row, and — as the host term — the two gathered hidden host rows each against its slab of the host weights. -/
theorem ref_at (R : Fin 1000000) (j : Fin 2) :
    val_main_v200 (F := Ideal) x0 x1 x2 x3 x4 x5 x6 x7 x8 x9 x10 x11 x12 x13 x14 x15 x16 x17 (ix2 R j)
      = net (fun p => val_main_v6 (F := Ideal) x1 x3 (ix2 R p)) (fun p => val_main_v25 (F := Ideal) x2 x3 (ix2 R p)) (fun p => x0 (ix2 R p))
          (fun k => lin (fun q => val_main_v140 (F := Ideal) x0 x1 x2 x3 x7 x8 x9 x14 (ix2 R q)) (fun q => x10 (ix3 (0 : Fin 4) q k))
            + lin (fun q => val_main_v159 (F := Ideal) x0 x1 x2 x3 x7 x8 x9 x14 (ix2 R q)) (fun q => x10 (ix3 (1 : Fin 4) q k)))
          (fun a p q => x4 (ix3 a p q)) (fun a p q => x5 (ix3 a p q)) (fun a q => x6 (ix2 a q)) (fun a q => x13 (ix2 a q))
          (fun a q k => x11 (ix3 (Fin.castLE (by decide : 2 ≤ 4) a) q k))
          (fun a k => x12 (ix2 (Fin.castLE (by decide : 2 ≤ 4) a) k)) (fun a k => x15 (ix2 a k))
          (fun k j => x16 (ix2 k j)) (fun j => x17 (ix1 j)) j := by
  have e2 : (fun k : Fin 64 => val_main_v196 (F := Ideal) x0 x1 x2 x3 x4 x5 x6 x7 x8 x9 x10 x11 x12 x13 x14 x15 (ix2 R k))
      = fun k => bnr (x15 (ix2 (0 : Fin 4) k)) (x15 (ix2 (1 : Fin 4) k)) (x15 (ix2 (2 : Fin 4) k)) (x15 (ix2 (3 : Fin 4) k))
          (pre2 (lin (fun q => val_main_v140 (F := Ideal) x0 x1 x2 x3 x7 x8 x9 x14 (ix2 R q)) (fun q => x10 (ix3 (0 : Fin 4) q k))
              + lin (fun q => val_main_v159 (F := Ideal) x0 x1 x2 x3 x7 x8 x9 x14 (ix2 R q)) (fun q => x10 (ix3 (1 : Fin 4) q k)))
            (lin (fun q => val_main_v109 (F := Ideal) x0 x1 x2 x3 x4 x5 x6 x13 (ix2 R q)) (fun q => x11 (ix3 (0 : Fin 4) q k)))
            (lin (fun q => val_main_v109 (F := Ideal) x0 x1 x2 x3 x4 x5 x6 x13 (ix2 R q)) (fun q => x11 (ix3 (1 : Fin 4) q k)))
            (x12 (ix2 (0 : Fin 4) k)) (x12 (ix2 (1 : Fin 4) k))) :=
    funext fun k => by rw [h2_at, pre2_at]
  rw [head_at, e2, h1_fun]
  generalize val_main_v6 (F := Ideal) x1 x3 = E0
  generalize val_main_v25 (F := Ideal) x2 x3 = E1
  generalize val_main_v140 (F := Ideal) x0 x1 x2 x3 x7 x8 x9 x14 = G0
  generalize val_main_v159 (F := Ideal) x0 x1 x2 x3 x7 x8 x9 x14 = G1
  rfl

end Cert.ReferenceIdeal.Row

end
-- ==== Proof.LibRowScatterPad.lean ====
/-
  ROW GATHER, ROW SCATTER-ADD, AND PADDING THE EDGE LIST WITH ZERO-WEIGHT EDGES.

  A graph propagation step over N nodes with D features and E edges: gather row idxD[e] of h : [N, D] for every edge e,
  scale it by a weight w[e], and add it into row idxS[e] of an accumulator z : [N, D]. In StableHLO terms this is a
  gather with one start index per edge (read signed and clamped into [0, N - 1]) followed by a scatter with an add body
  (scatter index read signed, not clamped; an update that falls outside the operand is dropped).

  The file reads both operations at an element:
    gather_rows_apply   the gather at (e, k) is the operand at (clamp idx[e], k);
    resultIdx?_rows     the scatter puts update element (e, k) at (idx[e], k) when 0 ≤ idx[e] < N, nowhere otherwise;
  and shows that neither changes on the old edges when the edge list is made longer (gather_rows_pad,
  resultIdx?_rows_pad). The main statement, propStep_pad: a step over E' ≥ E edges whose first E edges carry the same
  indices and weights as a step over E edges, and whose further edges all have weight 0, computes the same array over
  the extended reals. The proof matches the terms of the two scatter sums one to one along e ↦ e; a term of a further
  edge is 0 · x = 0 for every extended real x, infinite ones included, so no finiteness hypothesis is needed.
  Everything is generic in the sizes N, E, E', D.
-/
import Idealize.ShloMosaic.PureOps.Ideal
import Idealize.ShloMosaic.Lib.ValueIdx

noncomputable section

open scoped BigOperators

namespace Cert.Lib

open Idealize.ShloMosaic Idealize.ShloMosaic.ValueIdx

/-- Dimension numbers of a ROW gather: operand [N, D], one start index per edge ([E, 1]), result [E, D]; result
    row e is the operand's row at start index e. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Dimension numbers of a ROW scatter: operand [N, D], one scatter index per edge ([E, 1]), updates [E, D];
    update row e lands on the operand's row at scatter index e. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Gather
variable {α : Type}

/-- The start-indices position a row gather reads for result element (e, k): (e, 0). -/
theorem rowGather_siIdx {N E D : Nat} (wf) (e : Fin E) (k : Fin D) (h) :
    (rowGatherDims N E D wf).siIdx (ix2 e k) ⟨List.idxOf (0 : Fin 2) (rowGatherDims N E D wf).startIndexMap, h⟩
      = ix2 e (0 : Fin 1) := by
  funext b; refine Fin.ext ?_
  match b with
  | ⟨0, _⟩ => rfl
  | ⟨1, _⟩ => rfl

/-- Row coordinate of the operand index a row gather reads for result element (e, k): the start index of edge e,
    read signed and clamped into [0, N - 1]. -/
theorem rowGather_coord0 {N E D w : Nat} (wf) (idx : IVec ⟨2, ![E, 1]⟩ w) (e : Fin E) (k : Fin D) :
    ((rowGatherDims N E D wf).operandIdx (ix2 e k) idx (0 : Fin 2)).val
      = min (idx (ix2 e (0 : Fin 1))).toInt.toNat (N - 1) := by
  show (rowGatherDims N E D wf).start (ix2 e k) idx (0 : Fin 2) + (rowGatherDims N E D wf).batchCoord (ix2 e k) (0 : Fin 2)
    + (rowGatherDims N E D wf).offCoord (ix2 e k) (0 : Fin 2) = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl)]
  rw [rowGather_siIdx]
  rfl

/-- Column coordinate of that operand index: k. -/
theorem rowGather_coord1 {N E D w : Nat} (wf) (idx : IVec ⟨2, ![E, 1]⟩ w) (e : Fin E) (k : Fin D) :
    ((rowGatherDims N E D wf).operandIdx (ix2 e k) idx (1 : Fin 2)).val = k.val := by
  show (rowGatherDims N E D wf).start (ix2 e k) idx (1 : Fin 2) + (rowGatherDims N E D wf).batchCoord (ix2 e k) (1 : Fin 2)
    + (rowGatherDims N E D wf).offCoord (ix2 e k) (1 : Fin 2) = _
  rw [GatherDims.batchCoord_eq_zero _ _ _ List.not_mem_nil]
  have h1 : (1 : Fin 2) ∉ (rowGatherDims N E D wf).startIndexMap := by
    intro h; exact absurd (List.mem_singleton.mp h) (by decide : (1 : Fin 2) ≠ 0)
  unfold GatherDims.start
  rw [dif_neg h1]
  have hk : (1 : Fin 2) ∈ (rowGatherDims N E D wf).sKept :=
    (GatherDims.mem_sKept _ _).mpr
      ⟨fun h => absurd (List.mem_singleton.mp h) (by decide : (1 : Fin 2) ≠ 0), List.not_mem_nil⟩
  unfold GatherDims.offCoord
  rw [dif_pos hk]
  simp only [Nat.zero_add, Nat.add_zero]
  rfl

/-- A ROW GATHER READ AT (e, k): the operand at row "start index of edge e, read signed and clamped into [0, N - 1]",
    column k. -/
theorem gather_rows_apply {N E D w : Nat} (hN : 0 < N) (wf)
    (x : (⟨2, ![N, D]⟩ : Shape).Idx → α) (idx : IVec ⟨2, ![E, 1]⟩ w) (e : Fin E) (k : Fin D) :
    Host.gather (rowGatherDims N E D wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ => exact rowGather_coord0 wf idx e k
  | ⟨1, _⟩ => exact rowGather_coord1 wf idx e k

end Gather

section GatherPad
variable {α : Type}

/-- A well-formed row gather has a nonempty operand: its slice of one row fits. -/
theorem rowGather_pos {N E D : Nat}
    (wf : GatherDims.WF ⟨2, ![N, D]⟩ ⟨2, ![E, 1]⟩ ⟨2, ![E, D]⟩ [1] [0] [] [0] [] 1 ![1, D]) : 0 < N := (rowGatherDims N E D wf).slice_le (0 : Fin 2)

/-- PADDING THE EDGE LIST DOES NOT CHANGE A ROW GATHER ON THE OLD EDGES: when the longer start-index array agrees
    with the shorter one at edge e, the two gathers read the same operand element at (e, k). -/
theorem gather_rows_pad {N E E' D w : Nat} (hE : E ≤ E') (wf) (wf')
    (x : (⟨2, ![N, D]⟩ : Shape).Idx → α) (idx : IVec ⟨2, ![E, 1]⟩ w) (idx' : IVec ⟨2, ![E', 1]⟩ w)
    (e : Fin E) (k : Fin D) (h : idx' (ix2 (Fin.castLE hE e) (0 : Fin 1)) = idx (ix2 e (0 : Fin 1))) :
    Host.gather (rowGatherDims N E' D wf') x idx' (ix2 (Fin.castLE hE e) k)
      = Host.gather (rowGatherDims N E D wf) x idx (ix2 e k) := by
  have hN : 0 < N := rowGather_pos wf
  rw [gather_rows_apply hN wf', gather_rows_apply hN wf]
  simp only [h]

end GatherPad

section Scatter

/-- The scatter-indices position a row scatter reads for update element (e, k): (e, 0). -/
theorem rowScatter_siIdx {N E D : Nat} (wf) (e : Fin E) (k : Fin D) (h) :
    (rowScatterDims N E D wf).siIdx (ix2 e k)
        ⟨List.idxOf (0 : Fin 2) (rowScatterDims N E D wf).scatterDimsToOperandDims, h⟩
      = ix2 e (0 : Fin 1) := by
  funext b; refine Fin.ext ?_
  match b with
  | ⟨0, _⟩ => rfl
  | ⟨1, _⟩ => rfl

/-- Row start of update element (e, k): the scatter index of edge e, read signed, not clamped. -/
theorem rowScatter_start0 {N E D w : Nat} (wf) (idx : IVec ⟨2, ![E, 1]⟩ w) (e : Fin E) (k : Fin D) :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- Column start of update element (e, k): 0, the column axis is not indexed. -/
theorem rowScatter_start1 {N E D w : Nat} (wf) (idx : IVec ⟨2, ![E, 1]⟩ w) (e : Fin E) (k : Fin D) :
    (rowScatterDims N E D wf).start (ix2 e k) idx (1 : Fin 2) = 0 := by
  unfold ScatterDims.start
  rw [dif_neg (fun h => absurd (List.mem_singleton.mp h) (by decide : (1 : Fin 2) ≠ 0))]

/-- Row window coordinate of update element (e, k): 0, the row axis is an inserted window axis. -/
theorem rowScatter_window0 {N E D : Nat} (wf) (e : Fin E) (k : Fin D) :
    (rowScatterDims N E D wf).window (ix2 e k) (0 : Fin 2) = 0 := by
  unfold ScatterDims.window
  rw [dif_neg]
  simp [ScatterDims.sKept, Shape.kept]

/-- Column window coordinate of update element (e, k): k. -/
theorem rowScatter_window1 {N E D : Nat} (wf) (e : Fin E) (k : Fin D) :
    (rowScatterDims N E D wf).window (ix2 e k) (1 : Fin 2) = k.val := by
  unfold ScatterDims.window
  have hk : (1 : Fin 2) ∈ (rowScatterDims N E D wf).sKept := by
    simp [ScatterDims.sKept, Shape.kept]
  rw [dif_pos hk]
  rfl

end Scatter

section ScatterClosed

/-- Row coordinate update element (e, k) lands at: the scatter index of edge e, read signed. -/
theorem rowScatter_sum0 {N E D w : Nat} (wf) (idx : IVec ⟨2, ![E, 1]⟩ w) (e : Fin E) (k : Fin D) :
    (rowScatterDims N E D wf).start (ix2 e k) idx (0 : Fin 2) + ((rowScatterDims N E D wf).window (ix2 e k) (0 : Fin 2) : Int)
      = (idx (ix2 e (0 : Fin 1))).toInt := by
  rw [rowScatter_start0, rowScatter_window0]; simp

/-- Column coordinate update element (e, k) lands at: k. -/
theorem rowScatter_sum1 {N E D w : Nat} (wf) (idx : IVec ⟨2, ![E, 1]⟩ w) (e : Fin E) (k : Fin D) :
    (rowScatterDims N E D wf).start (ix2 e k) idx (1 : Fin 2) + ((rowScatterDims N E D wf).window (ix2 e k) (1 : Fin 2) : Int)
      = (k.val : Int) := by
  rw [rowScatter_start1, rowScatter_window1]; simp

/-- WHERE A ROW SCATTER PUTS UPDATE ELEMENT (e, k): with t the scatter index of edge e read signed, at operand element
    (t, k) when 0 ≤ t < N, and nowhere (the update is dropped) otherwise. -/
theorem resultIdx?_rows {N E D w : Nat} (wf) (idx : IVec ⟨2, ![E, 1]⟩ w) (e : Fin E) (k : Fin D) :
    (rowScatterDims N E D wf).resultIdx? (ix2 e k) idx
      = if h : 0 ≤ (idx (ix2 e (0 : Fin 1))).toInt ∧ (idx (ix2 e (0 : Fin 1))).toInt < (N : Int) then
          some (ix2 ⟨(idx (ix2 e (0 : Fin 1))).toInt.toNat, by omega⟩ k)
        else none := by
  have hk := k.isLt
  unfold ScatterDims.resultIdx?
  by_cases h : 0 ≤ (idx (ix2 e (0 : Fin 1))).toInt ∧ (idx (ix2 e (0 : Fin 1))).toInt < (N : Int)
  · have hall : ∀ a, 0 ≤ (rowScatterDims N E D wf).start (ix2 e k) idx a + ((rowScatterDims N E D wf).window (ix2 e k) a : Int)
        ∧ (rowScatterDims N E D wf).start (ix2 e k) idx a + ((rowScatterDims N E D wf).window (ix2 e k) a : Int)
          < ((⟨2, ![N, D]⟩ : Shape).size a : Int) := by
      intro a
      match a with
      | ⟨0, _⟩ =>
        show 0 ≤ (rowScatterDims N E D wf).start (ix2 e k) idx (0 : Fin 2) + ((rowScatterDims N E D wf).window (ix2 e k) (0 : Fin 2) : Int)
          ∧ (rowScatterDims N E D wf).start (ix2 e k) idx (0 : Fin 2) + ((rowScatterDims N E D wf).window (ix2 e k) (0 : Fin 2) : Int) < (N : Int)
        rw [rowScatter_sum0]; exact h
      | ⟨1, _⟩ =>
        show 0 ≤ (rowScatterDims N E D wf).start (ix2 e k) idx (1 : Fin 2) + ((rowScatterDims N E D wf).window (ix2 e k) (1 : Fin 2) : Int)
          ∧ (rowScatterDims N E D wf).start (ix2 e k) idx (1 : Fin 2) + ((rowScatterDims N E D wf).window (ix2 e k) (1 : Fin 2) : Int) < (D : Int)
        rw [rowScatter_sum1]; omega
    rw [dif_pos hall, dif_pos h]
    congr 1
    funext a
    refine Fin.ext ?_
    match a with
    | ⟨0, _⟩ =>
      show ((rowScatterDims N E D wf).start (ix2 e k) idx (0 : Fin 2) + ((rowScatterDims N E D wf).window (ix2 e k) (0 : Fin 2) : Int)).toNat
        = (idx (ix2 e (0 : Fin 1))).toInt.toNat
      rw [rowScatter_sum0]
    | ⟨1, _⟩ =>
      show ((rowScatterDims N E D wf).start (ix2 e k) idx (1 : Fin 2) + ((rowScatterDims N E D wf).window (ix2 e k) (1 : Fin 2) : Int)).toNat
        = k.val
      rw [rowScatter_sum1]; simp
  · rw [dif_neg h, dif_neg]
    intro hall
    apply h
    have h0 := hall (0 : Fin 2)
    rw [rowScatter_sum0] at h0
    exact h0

/-- PADDING THE EDGE LIST DOES NOT CHANGE WHERE A ROW SCATTER PUTS THE OLD EDGES' UPDATES: when the longer
    scatter-index array agrees with the shorter one at edge e, update element (e, k) lands at the same operand
    element (or is dropped) in both. -/
theorem resultIdx?_rows_pad {N E E' D w : Nat} (hE : E ≤ E') (wf) (wf')
    (idx : IVec ⟨2, ![E, 1]⟩ w) (idx' : IVec ⟨2, ![E', 1]⟩ w)
    (e : Fin E) (k : Fin D) (h : idx' (ix2 (Fin.castLE hE e) (0 : Fin 1)) = idx (ix2 e (0 : Fin 1))) :
    (rowScatterDims N E' D wf').resultIdx? (ix2 (Fin.castLE hE e) k) idx'
      = (rowScatterDims N E D wf).resultIdx? (ix2 e k) idx := by
  rw [resultIdx?_rows wf', resultIdx?_rows wf]
  simp only [h]

end ScatterClosed

section Propagation

/-- One propagation step: row e of h gathered at idxD, scaled by w e, accumulated into row idxS e on top of z. -/
def propStep {N E D : Nat} (dG : GatherDims ⟨2, ![N, D]⟩ ⟨2, ![E, 1]⟩ ⟨2, ![E, D]⟩)
    (dS : ScatterDims ⟨2, ![N, D]⟩ ⟨2, ![E, 1]⟩ ⟨2, ![E, D]⟩)
    (z : (⟨2, ![N, D]⟩ : Shape).Idx → EReal) (idxD idxS : IVec ⟨2, ![E, 1]⟩ 32)
    (w : (⟨2, ![E, 1]⟩ : Shape).Idx → EReal)
    (h : (⟨2, ![N, D]⟩ : Shape).Idx → EReal) : (⟨2, ![N, D]⟩ : Shape).Idx → EReal :=
  Ideal.hostScatterAdd dS z idxS (fun j => w (ix2 (j 0) 0) * Host.gather dG h idxD j)

/-- PADDING THE EDGE LIST WITH ZERO-WEIGHT EDGES DOES NOT CHANGE A PROPAGATION STEP. The longer edge list (E' edges)
    agrees with the shorter one (E edges) on the first E edges, in both index arrays and in the weights, and every
    further edge has weight 0. Each output element is z plus the sum of the weighted gathered elements that land on
    it; the old edges' terms correspond one to one, with equal landing places and equal values, and every term of a
    further edge is 0 times an extended real, which is 0 (also for an infinite one), so wherever such a term lands it
    adds nothing. No finiteness is assumed. -/
theorem propStep_pad {N E E' D : Nat} (hE : E ≤ E') (wfG) (wfG') (wfS) (wfS')
    (z h : (⟨2, ![N, D]⟩ : Shape).Idx → EReal)
    (idxD idxS : IVec ⟨2, ![E, 1]⟩ 32) (idxD' idxS' : IVec ⟨2, ![E', 1]⟩ 32)
    (w : (⟨2, ![E, 1]⟩ : Shape).Idx → EReal) (w' : (⟨2, ![E', 1]⟩ : Shape).Idx → EReal)
    (hD : ∀ e : Fin E, idxD' (ix2 (Fin.castLE hE e) 0) = idxD (ix2 e 0))
    (hS : ∀ e : Fin E, idxS' (ix2 (Fin.castLE hE e) 0) = idxS (ix2 e 0))
    (hw : ∀ e : Fin E, w' (ix2 (Fin.castLE hE e) 0) = w (ix2 e 0))
    (hw0 : ∀ e : Fin E', E ≤ e.val → w' (ix2 e 0) = 0) :
    propStep (rowGatherDims N E' D wfG') (rowScatterDims N E' D wfS') z idxD' idxS' w' h
      = propStep (rowGatherDims N E D wfG) (rowScatterDims N E D wfS) z idxD idxS w h := by
  have hval : ∀ (e : Fin E) (k : Fin D),
      w' (ix2 (Fin.castLE hE e) 0) * Host.gather (rowGatherDims N E' D wfG') h idxD' (ix2 (Fin.castLE hE e) k)
        = w (ix2 e 0) * Host.gather (rowGatherDims N E D wfG) h idxD (ix2 e k) := by
    intro e k
    rw [hw e, gather_rows_pad hE wfG wfG' h idxD idxD' e k (hD e)]
  funext i
  unfold propStep Ideal.hostScatterAdd
  congr 1
  symm
  refine Finset.sum_bij_ne_zero (fun j _ _ => ix2 (Fin.castLE hE (j 0)) (j 1)) ?_ ?_ ?_ ?_
  · intro j hj _
    obtain ⟨e, k, rfl⟩ : ∃ (e : Fin E) (k : Fin D), j = ix2 e k := ⟨j 0, j 1, eq_ix2 j⟩
    show ix2 (Fin.castLE hE e) k ∈ _
    rw [Finset.mem_filter] at hj ⊢
    refine ⟨Finset.mem_univ _, ?_⟩
    rw [resultIdx?_rows_pad hE wfS wfS' idxS idxS' e k (hS e)]
    exact hj.2
  · intro j₁ _ _ j₂ _ _ hj
    obtain ⟨e₁, k₁, rfl⟩ : ∃ (e : Fin E) (k : Fin D), j₁ = ix2 e k := ⟨j₁ 0, j₁ 1, eq_ix2 j₁⟩
    obtain ⟨e₂, k₂, rfl⟩ : ∃ (e : Fin E) (k : Fin D), j₂ = ix2 e k := ⟨j₂ 0, j₂ 1, eq_ix2 j₂⟩
    change ix2 (Fin.castLE hE e₁) k₁ = ix2 (Fin.castLE hE e₂) k₂ at hj
    have h0 : Fin.castLE hE e₁ = Fin.castLE hE e₂ := congrFun hj 0
    have h1 : k₁ = k₂ := congrFun hj 1
    have h0' : e₁ = e₂ := Fin.ext (by simpa using congrArg Fin.val h0)
    rw [h0', h1]
  · intro b hb hb0
    obtain ⟨e', k, rfl⟩ : ∃ (e' : Fin E') (k : Fin D), b = ix2 e' k := ⟨b 0, b 1, eq_ix2 b⟩
    change w' (ix2 e' 0) * Host.gather (rowGatherDims N E' D wfG') h idxD' (ix2 e' k) ≠ 0 at hb0
    by_cases hlt : e'.val < E
    · have he : Fin.castLE hE ⟨e'.val, hlt⟩ = e' := Fin.ext rfl
      refine ⟨ix2 (⟨e'.val, hlt⟩ : Fin E) k, ?_, ?_, ?_⟩
      · rw [Finset.mem_filter]
        refine ⟨Finset.mem_univ _, ?_⟩
        rw [← resultIdx?_rows_pad hE wfS wfS' idxS idxS' ⟨e'.val, hlt⟩ k (hS _), he]
        exact (Finset.mem_filter.mp hb).2
      · show w (ix2 (⟨e'.val, hlt⟩ : Fin E) 0) * Host.gather (rowGatherDims N E D wfG) h idxD (ix2 (⟨e'.val, hlt⟩ : Fin E) k) ≠ 0
        rw [← hval ⟨e'.val, hlt⟩ k, he]
        exact hb0
      · show ix2 (Fin.castLE hE (⟨e'.val, hlt⟩ : Fin E)) k = ix2 e' k
        rw [he]
    · exfalso
      apply hb0
      rw [hw0 e' (Nat.le_of_not_lt hlt), zero_mul]
  · intro j _ _
    obtain ⟨e, k, rfl⟩ : ∃ (e : Fin E) (k : Fin D), j = ix2 e k := ⟨j 0, j 1, eq_ix2 j⟩
    exact (hval e k).symm

end Propagation

end Cert.Lib

end
-- ==== Proof.KernelHost.lean ====
/-
  WHAT THE KERNEL'S REGION FINDS IN ITS COMPUTED OPERANDS.

  Before the region the kernel's program computes, on the host, five of the region's thirteen operands: the two row
  gathers of the embedding table (by source host and by destination host), the host term of conv2, and the first two
  slabs (rows) of two stacked parameters. The two gathers and everything the host term is built from — the hidden host
  table, the two index columns, the two slabs of the host weights — are the same operations on the same arguments as
  the reference program's, so they ARE the reference's named stages. The host term itself is where the two programs
  differ: the kernel's program multiplies the hidden host table by each slab once, on its 50000 rows, and then gathers
  rows of the two products and adds them; the reference gathers rows of the table and multiplies each gathered array.
  Entry (R, k) of a row gather is entry k of the selected row, and entry k of a row of a product is that row against
  column k: so both are the selected row of the table against column k of the slab.
-/
import proofs.«110349_j84696755077152_2_alg».proof.Proof.Gen.KernelIdeal.Frame
import proofs.«110349_j84696755077152_2_alg».proof.Proof.ReadPatched
import proofs.«110349_j84696755077152_2_alg».proof.Proof.RefRow
import proofs.«110349_j84696755077152_2_alg».proof.Proof.Spec
import proofs.«110349_j84696755077152_2_alg».proof.Proof.LibRowReads
import proofs.«110349_j84696755077152_2_alg».proof.Proof.LibRowScatterPad

noncomputable section

open scoped BigOperators

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo Cert.Net Cert.Lib

variable (m : (ℓ : Loc nD τ sig) → Buf (Elt Ideal) ℓ)

/-- The table row an index column selects for flow R: the column's word read as a signed number, clamped into the table. -/
abbrev hrow (idx : S1000000x1.Idx → BitVec 32) (R : Fin 1000000) : Fin 50000 :=
  ⟨min (idx (ix2 R (0 : Fin 1))).toInt.toNat (50000 - 1), by omega⟩

/-- A row gather of a [50000, 64] table, at (R, k): the selected row's entry k. -/
theorem gather64_at {α : Type} (X : S50000x64.Idx → α) (idx : S1000000x1.Idx → BitVec 32) (R : Fin 1000000) (k : Fin 64) :
    Host.gather gather_S50000x64_S1000000x1_S1000000x64_1_0_n_n_0_1_164 X idx (ix2 R k) = X (ix2 (hrow idx R) k) :=
  gather_rows_apply (by decide) gather_S50000x64_S1000000x1_S1000000x64_1_0_n_n_0_1_164.wf X idx R k

/-- The same for the reference program's record. -/
theorem ref_gather64_at {α : Type} (X : S50000x64.Idx → α) (idx : S1000000x1.Idx → BitVec 32) (R : Fin 1000000) (k : Fin 64) :
    Host.gather Cert.ReferenceIdeal.gather_S50000x64_S1000000x1_S1000000x64_1_0_n_n_0_1_164 X idx (ix2 R k)
      = X (ix2 (hrow idx R) k) :=
  gather_rows_apply (by decide) Cert.ReferenceIdeal.gather_S50000x64_S1000000x1_S1000000x64_1_0_n_n_0_1_164.wf X idx R k

/-- The hidden host table against a [64, 64] matrix, at (h, k). -/
theorem dgH {φ₁ φ₂ : FTy} (a : FVec Ideal S50000x64 φ₁) (b : FVec Ideal S64x64 φ₂) (h : Fin 50000) (k : Fin 64) :
    Host.dotGeneral dot_S50000x64_S64x64_S50000x64_1_0_0_1_n_n none a b (ix2 h k)
      = ∑ q : Fin 64, a (ix2 h q) * b (ix2 q k) :=
  dotGeneral_at _ rfl rfl rfl rfl rfl rfl none a b h k

/-! ## The operands, read out of the host operations -/

/-- The embedding rows gathered by source host are the reference's. -/
theorem V_v78 (c : Dev nD) :
    (V m c main_v78 : S1000000x32.Idx → EReal)
      = Cert.ReferenceIdeal.ReadP.val_main_v6 (F := Ideal) (m ((c : Thread nD τ).loc main_arg1)) (m ((c : Thread nD τ).loc main_arg3)) := by
  dsimp only [V, hostOps0]; after_results_simp; rfl

/-- The embedding rows gathered by destination host are the reference's. -/
theorem V_v85 (c : Dev nD) :
    (V m c main_v85 : S1000000x32.Idx → EReal)
      = Cert.ReferenceIdeal.ReadP.val_main_v25 (F := Ideal) (m ((c : Thread nD τ).loc main_arg2)) (m ((c : Thread nD τ).loc main_arg3)) := by
  dsimp only [V, hostOps0]; after_results_simp; rfl

/-- The first two slabs of the flow weights of conv2. -/
theorem V_v107 (c : Dev nD) :
    (V m c main_v107 : S2x64x64.Idx → EReal)
      = extractStridedSlice S2x64x64 ![0, 0, 0] (m ((c : Thread nD τ).loc main_arg11)) slices_S4x64x64_S2x64x64_0_0_0 := by
  dsimp only [V, hostOps0]; after_results_simp

/-- The first two rows of the biases of conv2. -/
theorem V_v108 (c : Dev nD) :
    (V m c main_v108 : S2x64.Idx → EReal)
      = extractStridedSlice S2x64 ![0, 0] (m ((c : Thread nD τ).loc main_arg12)) slices_S4x64_S2x64_0_0 := by
  dsimp only [V, hostOps0]; after_results_simp

set_option maxHeartbeats 4000000 in
/-- The host term: rows of the two products of the hidden host table, gathered and added. The table, the index
    columns and the slabs are the reference's stages. -/
theorem V_v106 (c : Dev nD) :
    (V m c main_v106 : S1000000x64.Idx → EReal)
      = addf (F := Ideal) (s := S1000000x64) (φ := .f32)
          (Host.gather gather_S50000x64_S1000000x1_S1000000x64_1_0_n_n_0_1_164
            (Host.dotGeneral (F := Ideal) (φ₁ := .f32) (φ₂ := .f32) dot_S50000x64_S64x64_S50000x64_1_0_0_1_n_n none
              (Cert.ReferenceIdeal.ReadP.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)))
              (Cert.ReferenceIdeal.ReadP.val_main_v142 (F := Ideal) (m ((c : Thread nD τ).loc main_arg10))))
            (Cert.ReferenceIdeal.ReadP.val_main_v139 (F := Ideal) (m ((c : Thread nD τ).loc main_arg1))))
          (Host.gather gather_S50000x64_S1000000x1_S1000000x64_1_0_n_n_0_1_164
            (Host.dotGeneral (F := Ideal) (φ₁ := .f32) (φ₂ := .f32) dot_S50000x64_S64x64_S50000x64_1_0_0_1_n_n none
              (Cert.ReferenceIdeal.ReadP.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)))
              (Cert.ReferenceIdeal.ReadP.val_main_v161 (F := Ideal) (m ((c : Thread nD τ).loc main_arg10))))
            (Cert.ReferenceIdeal.ReadP.val_main_v158 (F := Ideal) (m ((c : Thread nD τ).loc main_arg2)))) := by
  dsimp only [V, hostOps0]; after_results_simp; rfl

/-! ## The host term at an entry -/

/-- The hidden host table against a [64, 64] matrix, in the specification's spelling. -/
theorem dgHl {φ₁ φ₂ : FTy} (a : FVec Ideal S50000x64 φ₁) (b : FVec Ideal S64x64 φ₂) (h : Fin 50000) (k : Fin 64) :
    Host.dotGeneral dot_S50000x64_S64x64_S50000x64_1_0_0_1_n_n none a b (ix2 h k)
      = lin (fun q => a (ix2 h q)) (fun q => b (ix2 q k)) := dgH a b h k

/-- ENTRY (R, k) OF THE HOST TERM: the hidden host rows the reference gathers for flow R, each against column k of its
    slab of the host weights. -/
theorem V_v106_at (c : Dev nD) (R : Fin 1000000) (k : Fin 64) :
    V m c main_v106 (ix2 R k)
      = lin (fun q => Cert.ReferenceIdeal.ReadP.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (ix2 R q))
            (fun q => (m ((c : Thread nD τ).loc main_arg10)) (ix3 (0 : Fin 4) q k))
        + lin (fun q => Cert.ReferenceIdeal.ReadP.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (ix2 R q))
            (fun q => (m ((c : Thread nD τ).loc main_arg10)) (ix3 (1 : Fin 4) q k)) := by
  rw [V_v106]
  unfold Cert.ReferenceIdeal.ReadP.val_main_v140 Cert.ReferenceIdeal.ReadP.val_main_v159
  generalize Cert.ReferenceIdeal.ReadP.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) = H
  generalize Cert.ReferenceIdeal.ReadP.val_main_v139 (F := Ideal) (m ((c : Thread nD τ).loc main_arg1)) = iS
  generalize Cert.ReferenceIdeal.ReadP.val_main_v158 (F := Ideal) (m ((c : Thread nD τ).loc main_arg2)) = iD
  have eS : (fun q : Fin 64 => Host.gather Cert.ReferenceIdeal.gather_S50000x64_S1000000x1_S1000000x64_1_0_n_n_0_1_164 H iS (ix2 R q)) = fun q => H (ix2 (hrow iS R) q) :=
    funext fun q => ref_gather64_at H iS R q
  have eD : (fun q : Fin 64 => Host.gather Cert.ReferenceIdeal.gather_S50000x64_S1000000x1_S1000000x64_1_0_n_n_0_1_164 H iD (ix2 R q)) = fun q => H (ix2 (hrow iD R) q) :=
    funext fun q => ref_gather64_at H iD R q
  rw [addf_apply, gather64_at, gather64_at, dgHl, dgHl,
    Cert.ReferenceIdeal.Row.w142 (m ((c : Thread nD τ).loc main_arg10)) k, Cert.ReferenceIdeal.Row.w161 (m ((c : Thread nD τ).loc main_arg10)) k, eS, eD]

/-- Slab a of the flow weights the region finds is slab a of the stacked parameter. -/
theorem V_v107_at (c : Dev nD) (a : Fin 2) (q k : Fin 64) :
    V m c main_v107 (ix3 a q k) = (m ((c : Thread nD τ).loc main_arg11)) (ix3 (Fin.castLE (by decide : 2 ≤ 4) a) q k) := by
  rw [V_v107]; exact slabs_apply _ _ _ a q k

/-- Row a of the biases the region finds is row a of the stacked parameter. -/
theorem V_v108_at (c : Dev nD) (a : Fin 2) (k : Fin 64) :
    V m c main_v108 (ix2 a k) = (m ((c : Thread nD τ).loc main_arg12)) (ix2 (Fin.castLE (by decide : 2 ≤ 4) a) k) := by
  rw [V_v108]; exact rows_apply _ _ _ a k

end Cert.KernelIdeal.HostSide

end
-- ==== Proof.Bridge.lean ====
/-
  THE TWO RESULTS ARE ONE ARRAY.

  From the same arguments, the reference's result (its last stage) and the kernel's result array (`outArr` of the
  operands the region finds) agree entry by entry: at (R, j) both are the network of Spec.lean on row R. The reference
  reaches that form in RefRow.lean and the kernel in KernelRow.lean and KernelArray.lean; what is left is that the
  kernel's operands are what the reference's form reads — the argument arrays unchanged by the host operations before
  the region, the two gathered embedding arrays, the two sliced parameters, and the host term of conv2, which at (R, k)
  is the sum of the reference's two host products.
-/
import proofs.«110349_j84696755077152_2_alg».proof.Proof.KernelArray
import proofs.«110349_j84696755077152_2_alg».proof.Proof.KernelHost
import proofs.«110349_j84696755077152_2_alg».proof.Proof.RefRow

noncomputable section

open scoped BigOperators

namespace Cert.Bridge

open Cert.KernelIdeal Cert.KernelIdeal.Gen Idealize.ShloMosaic Idealize.ShloMosaic.TcCoe Idealize.SL.Sem
open Idealize.ShloMosaic.ValueIdx Cert.Net

variable (m : (ℓ : Loc nD τ sig) → Buf (Elt Ideal) ℓ)

/-- The reference's result, from the kernel's arguments, is the kernel's result array. -/
theorem result_eq (c : Dev nD) :
    Cert.ReferenceIdeal.ReadP.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      = Cert.KernelIdeal.Arr.outArr (V m c main_v78) (V m c main_v85) (V m c main_arg0) (V m c main_v106) (V m c main_arg4) (V m c main_arg5)
        (V m c main_arg6) (V m c main_arg13) (V m c main_v107) (V m c main_v108) (V m c main_arg15) (V m c main_arg16)
        (V m c main_arg17) := by
  funext i
  obtain ⟨R, j, rfl⟩ : ∃ (R : Fin 1000000) (j : Fin 2), i = ix2 R j := ⟨i 0, i 1, eq_ix2 i⟩
  have e3 : (fun k : Fin 64 => V m c main_v106 (ix2 R k)) = _ := funext fun k => HostSide.V_v106_at m c R k
  have e8 : (fun (a : Fin 2) (q k : Fin 64) => V m c main_v107 (ix3 a q k)) = _ :=
    funext fun a => funext fun q => funext fun k => HostSide.V_v107_at m c a q k
  have e9 : (fun (a : Fin 2) (k : Fin 64) => V m c main_v108 (ix2 a k)) = _ :=
    funext fun a => funext fun k => HostSide.V_v108_at m c a k
  rw [Cert.ReferenceIdeal.Row.ref_at, Cert.KernelIdeal.Arr.outArr_ix2, e3, e8, e9, HostSide.V_v78 m c, HostSide.V_v85 m c,
    V_main_arg0 m c, V_main_arg4 m c, V_main_arg5 m c, V_main_arg6 m c, V_main_arg13 m c, V_main_arg15 m c,
    V_main_arg16 m c, V_main_arg17 m c]

end Cert.Bridge

end
-- ==== Proof.lean ====
/-
  THE CERTIFICATE: a graph network on a million flows, computed by a tiled kernel and by a line of host operations.

  The kernel's program and the reference compute, per flow, the network of Proof/Spec.lean: two layers, each a sum of
  matrix products and biases followed by an inference-mode batch norm and a maximum with zero, and a linear head. They
  differ in the order of the additions inside each layer, in number formats the kernel passes through (the identity on
  the extended reals), in tiling (the kernel takes 2000 flows per grid point), and in one rearrangement: the kernel's
  program multiplies the hidden host table by a weight slab once and gathers rows of the product, where the reference
  gathers rows of the table and multiplies — the same row against the same column. None of this needs an input to be
  finite, so the precondition is never opened.

  The frames of the two kernel programs are the generated ones; the reference's frame is its run with the result
  dropped; the idealization rewrote nothing, so its conjunct is `True`; the algebraic conjunct puts the kernel's run
  (its result array named by Proof/KernelArray.lean) beside the reference's run (its result the last stage of the
  reference read by Proof/RefRow.lean) and cites Proof/Bridge.lean.
-/
import proofs.«110349_j84696755077152_2_alg».proof.Defs
import proofs.«110349_j84696755077152_2_alg».proof.Proof.Gen.Kernel
import proofs.«110349_j84696755077152_2_alg».proof.Proof.Gen.Kernel.Skeleton
import proofs.«110349_j84696755077152_2_alg».proof.Proof.Gen.Kernel.Launch
import proofs.«110349_j84696755077152_2_alg».proof.Proof.Gen.Kernel.Points
import proofs.«110349_j84696755077152_2_alg».proof.Proof.Gen.Kernel.Frame
import proofs.«110349_j84696755077152_2_alg».proof.Proof.Gen.KernelIdeal
import proofs.«110349_j84696755077152_2_alg».proof.Proof.Gen.KernelIdeal.Skeleton
import proofs.«110349_j84696755077152_2_alg».proof.Proof.Gen.KernelIdeal.Launch
import proofs.«110349_j84696755077152_2_alg».proof.Proof.Gen.KernelIdeal.Points
import proofs.«110349_j84696755077152_2_alg».proof.Proof.Gen.KernelIdeal.Frame
import proofs.«110349_j84696755077152_2_alg».proof.Proof.Gen.ReferenceIdeal
import proofs.«110349_j84696755077152_2_alg».proof.Proof.Gen.Pre_finite_inputs
import proofs.«110349_j84696755077152_2_alg».proof.Proof.Gen.KernelIdeal.Value
import proofs.«110349_j84696755077152_2_alg».proof.Proof.Bridge
import proofs.«110349_j84696755077152_2_alg».proof.Proof.RunPatched
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

open Cert.ReferenceIdeal in
/-- The composed term the reference's run ends at is the reference's last stage: the same nest of operations on the
    arguments, named once as a whole and once stage by stage. -/
theorem res_eq (m : (ℓ : Loc nD τ sig) → Buf (Elt Ideal) ℓ) (c : Dev nD) :
    Cert.ReferenceIdeal.ValueP.res_main_v200 (F := Ideal) m c
      = Cert.ReferenceIdeal.ReadP.val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.ValueP.res_main_v200; rfl

open Cert.KernelIdeal Cert.KernelIdeal.Gen in
/-- Both programs end with the result at the network of every flow row: the kernel's array by its blocks, the
    reference's as its last stage, one array by Proof/Bridge.lean once the reference's arguments are the kernel's. -/
theorem algebraic : Cert.algebraic_KernelIdeal_ReferenceIdeal := by
  intro m ρ m' ρ' _ hagree
  refine ⟨fun c => Cert.KernelIdeal.Arr.outArr (V m c main_v78) (V m c main_v85) (V m c main_arg0) (V m c main_v106) (V m c main_arg4) (V m c main_arg5)
        (V m c main_arg6) (V m c main_arg13) (V m c main_v107) (V m c main_v108) (V m c main_arg15) (V m c main_arg16)
        (V m c main_arg17), ?_, ?_⟩
  · exact (θ_run Cert.KernelIdeal.defs _ _).mono
      (fun r h c => ⟨(h c).1.trans (Cert.KernelIdeal.Arr.final13 m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    rw [res_eq]
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]
    exact Cert.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
